-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S1638400 : Shape := ⟨1, ![1638400]⟩
abbrev S100000x64 : Shape := ⟨2, ![100000, 64]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  reducesTo_S_S_d : S_.ReducesTo [] S_

variable [Facts]

def fn_part1 {F : FTy → Type} [FloatOps F] (main_arg8 : FVec F S100000 .f32) (main_arg9 : FVec F S_ .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_v19 : FVec F S100000 .f32 := Host.absf main_arg8
  let main_cst_6 : FVec F S_ .f32 := constant S_ .f32 0x7F800000#32
  let main_v20 : FVec F S100000 .f32 := broadcastInDim S100000 ![] bcast_S_S100000 main_cst_6
  let main_v21 : IVec S100000 1 := cmpf .olt main_v19 main_v20
  let main_c_7 : IVec S_ 1 := constantI S_ 1 1#1
  let main_v22 : IVec S_ 1 := (fun x v => Host.reduce IntOp.andi x v reducesTo_S100000_S_d0 h_S_) main_v21 main_c_7
  let main_v23 : IVec S_ 1 := andi main_v18 main_v22
  let main_v24 : FVec F S_ .f32 := Host.absf main_arg9
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  main_v27

def fn {F : FTy → Type} [FloatOps F] (main_arg0 : IVec S16384 32) (main_arg1 : IVec S16384 32) (main_arg2 : IVec S1638400 32) (main_arg3 : IVec S1638400 32) (main_arg4 : FVec F S100000x64 .f32) (main_arg5 : FVec F S100000x64 .f32) (main_arg6 : FVec F S100000x64 .f32) (main_arg7 : FVec F S100000 .f32) (main_arg8 : FVec F S100000 .f32) (main_arg9 : FVec F S_ .f32) : IVec S_ 1 :=
  let main_v0 : FVec F S100000x64 .f32 := Host.absf main_arg4
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg5
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg6
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000 .f32 := Host.absf main_arg7
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg8 main_arg9 main_v13 main_v16
-- ==== Kernel.lean ====
abbrev S16384 : Shape := ⟨1, ![16384]⟩
abbrev S1638400 : Shape := ⟨1, ![1638400]⟩
abbrev S100000x64 : Shape := ⟨2, ![100000, 64]⟩
abbrev S100000 : Shape := ⟨1, ![100000]⟩
abbrev S_ : Shape := ⟨0, ![]⟩
abbrev S100000x1 : Shape := ⟨2, ![100000, 1]⟩
abbrev S10000x64 : Shape := ⟨2, ![10000, 64]⟩
abbrev S10000x1 : Shape := ⟨2, ![10000, 1]⟩
abbrev S10000 : Shape := ⟨1, ![10000]⟩
abbrev S1638400x1 : Shape := ⟨2, ![1638400, 1]⟩
abbrev S12800x128 : Shape := ⟨2, ![12800, 128]⟩
abbrev S1600x128 : Shape := ⟨2, ![1600, 128]⟩
abbrev S81920 : Shape := ⟨1, ![81920]⟩
abbrev S16384x5 : Shape := ⟨2, ![16384, 5]⟩
abbrev S16384x1 : Shape := ⟨2, ![16384, 1]⟩
abbrev S16384x64 : Shape := ⟨2, ![16384, 64]⟩

abbrev nBuf : Space → Nat
  | .hbm => 132
  | .vmem => 14
  | .smem => 0
  | _ => 0

abbrev hbmTy0_0 (i : Nat) : BufTy := match i % 128 with
  | 0 => ⟨S16384, .i32⟩
  | 1 => ⟨S16384, .i32⟩
  | 2 => ⟨S1638400, .i32⟩
  | 3 => ⟨S1638400, .i32⟩
  | 4 => ⟨S100000x64, .f32⟩
  | 5 => ⟨S100000x64, .f32⟩
  | 6 => ⟨S100000x64, .f32⟩
  | 7 => ⟨S100000, .f32⟩
  | 8 => ⟨S100000, .f32⟩
  | 9 => ⟨S_, .f32⟩
  | 10 => ⟨S100000x1, .f32⟩
  | 11 => ⟨S100000, .f32⟩
  | 12 => ⟨S_, .i32⟩
  | 13 => ⟨S1638400, .i32⟩
  | 14 => ⟨S1638400, .i1⟩
  | 15 => ⟨S_, .i32⟩
  | 16 => ⟨S1638400, .i32⟩
  | 17 => ⟨S1638400, .i32⟩
  | 18 => ⟨S1638400, .i32⟩
  | 19 => ⟨S1638400x1, .i32⟩
  | 20 => ⟨S1638400, .f32⟩
  | 21 => ⟨S_, .i32⟩
  | 22 => ⟨S_, .i32⟩
  | 23 => ⟨S1638400, .i32⟩
  | 24 => ⟨S1638400, .i32⟩
  | 25 => ⟨S1638400, .i32⟩
  | 26 => ⟨S_, .i32⟩
  | 27 => ⟨S1638400, .i32⟩
  | 28 => ⟨S1638400, .i1⟩
  | 29 => ⟨S1638400, .i32⟩
  | 30 => ⟨S1638400, .i32⟩
  | 31 => ⟨S_, .i32⟩
  | 32 => ⟨S1638400, .i32⟩
  | 33 => ⟨S1638400, .i1⟩
  | 34 => ⟨S1638400, .i1⟩
  | 35 => ⟨S_, .i32⟩
  | 36 => ⟨S1638400, .i32⟩
  | 37 => ⟨S1638400, .i32⟩
  | 38 => ⟨S1638400, .i32⟩
  | 39 => ⟨S_, .i32⟩
  | 40 => ⟨S1638400, .i32⟩
  | 41 => ⟨S1638400, .i1⟩
  | 42 => ⟨S_, .i32⟩
  | 43 => ⟨S1638400, .i32⟩
  | 44 => ⟨S1638400, .i32⟩
  | 45 => ⟨S1638400, .i32⟩
  | 46 => ⟨S1638400x1, .i32⟩
  | 47 => ⟨S1638400, .i32⟩
  | 48 => ⟨S12800x128, .i32⟩
  | 49 => ⟨S12800x128, .f32⟩
  | 50 => ⟨S12800x128, .i32⟩
  | 51 => ⟨S12800x128, .f32⟩
  | 52 => ⟨S12800x128, .f32⟩
  | 53 => ⟨S1638400, .f32⟩
  | 54 => ⟨S1638400, .f32⟩
  | 55 => ⟨S_, .f32⟩
  | 56 => ⟨S81920, .f32⟩
  | 57 => ⟨S1638400x1, .i32⟩
  | 58 => ⟨S81920, .f32⟩
  | 59 => ⟨S_, .f32⟩
  | 60 => ⟨S81920, .f32⟩
  | 61 => ⟨S1638400x1, .i32⟩
  | 62 => ⟨S81920, .f32⟩
  | 63 => ⟨S_, .f32⟩
  | 64 => ⟨S81920, .f32⟩
  | 65 => ⟨S81920, .i1⟩
  | 66 => ⟨S_, .f32⟩
  | 67 => ⟨S81920, .f32⟩
  | 68 => ⟨S81920, .f32⟩
  | 69 => ⟨S81920, .f32⟩
  | 70 => ⟨S81920, .f32⟩
  | 71 => ⟨S_, .f32⟩
  | 72 => ⟨S_, .f32⟩
  | 73 => ⟨S81920, .f32⟩
  | 74 => ⟨S81920, .f32⟩
  | 75 => ⟨S16384x5, .f32⟩
  | 76 => ⟨S_, .f32⟩
  | 77 => ⟨S16384, .f32⟩
  | 78 => ⟨S_, .i32⟩
  | 79 => ⟨S16384, .i32⟩
  | 80 => ⟨S16384, .i1⟩
  | 81 => ⟨S_, .i32⟩
  | 82 => ⟨S16384, .i32⟩
  | 83 => ⟨S16384, .i32⟩
  | 84 => ⟨S16384, .i32⟩
  | 85 => ⟨S16384x1, .i32⟩
  | 86 => ⟨S16384x64, .f32⟩
  | 87 => ⟨S16384x1, .f32⟩
  | 88 => ⟨S16384x64, .f32⟩
  | 89 => ⟨S16384x64, .f32⟩
  | 90 => ⟨S_, .i32⟩
  | 91 => ⟨S16384, .i32⟩
  | 92 => ⟨S16384, .i1⟩
  | 93 => ⟨S_, .i32⟩
  | 94 => ⟨S16384, .i32⟩
  | 95 => ⟨S16384, .i32⟩
  | 96 => ⟨S16384, .i32⟩
  | 97 => ⟨S16384x1, .i32⟩
  | 98 => ⟨S16384x64, .f32⟩
  | 99 => ⟨S16384x64, .f32⟩
  | 100 => ⟨S_, .f32⟩
  | 101 => ⟨S16384, .f32⟩
  | 102 => ⟨S_, .i32⟩
  | 103 => ⟨S16384, .i32⟩
  | 104 => ⟨S16384, .i1⟩
  | 105 => ⟨S_, .i32⟩
  | 106 => ⟨S16384, .i32⟩
  | 107 => ⟨S16384, .i32⟩
  | 108 => ⟨S16384, .i32⟩
  | 109 => ⟨S16384x1, .i32⟩
  | 110 => ⟨S16384, .f32⟩
  | 111 => ⟨S16384, .f32⟩
  | 112 => ⟨S_, .i32⟩
  | 113 => ⟨S16384, .i32⟩
  | 114 => ⟨S16384, .i1⟩
  | 115 => ⟨S_, .i32⟩
  | 116 => ⟨S16384, .i32⟩
  | 117 => ⟨S16384, .i32⟩
  | 118 => ⟨S16384, .i32⟩
  | 119 => ⟨S16384x1, .i32⟩
  | 120 => ⟨S16384, .f32⟩
  | 121 => ⟨S16384, .f32⟩
  | 122 => ⟨S16384, .f32⟩
  | 123 => ⟨S16384, .f32⟩
  | 124 => ⟨S_, .f32⟩
  | 125 => ⟨S_, .f32⟩
  | 126 => ⟨S_, .f32⟩
  | 127 => ⟨S16384, .f32⟩
  | _ => ⟨S16384, .i32⟩

abbrev hbmTy0_1 (i : Nat) : BufTy := match i % 128 with
  | 0 => ⟨S16384, .f32⟩
  | 1 => ⟨S_, .f32⟩
  | 2 => ⟨S16384, .f32⟩
  | 3 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S1600x128, .i32⟩
  | .local _ .vmem, ⟨5, _⟩ => ⟨S1600x128, .i32⟩
  | .local _ .vmem, ⟨6, _⟩ => ⟨S1600x128, .f32⟩
  | .local _ .vmem, ⟨7, _⟩ => ⟨S1600x128, .f32⟩
  | .local _ .vmem, ⟨8, _⟩ => ⟨S1600x128, .i32⟩
  | .local _ .vmem, ⟨9, _⟩ => ⟨S1600x128, .i32⟩
  | .local _ .vmem, ⟨10, _⟩ => ⟨S1600x128, .f32⟩
  | .local _ .vmem, ⟨11, _⟩ => ⟨S1600x128, .f32⟩
  | .local _ .vmem, ⟨12, _⟩ => ⟨S1600x128, .f32⟩
  | .local _ .vmem, ⟨13, _⟩ => ⟨S1600x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v9 : Ref sig .tc := ⟨.hbm, 38, rfl⟩
abbrev main_c_2 : Ref sig .tc := ⟨.hbm, 39, rfl⟩
abbrev main_v10 : Ref sig .tc := ⟨.hbm, 40, rfl⟩
abbrev main_v11 : Ref sig .tc := ⟨.hbm, 41, rfl⟩
abbrev main_c_3 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20_0 : Ref sig .tc := ⟨.hbm, 51, rfl⟩
abbrev main_v20_1 : Ref sig .tc := ⟨.hbm, 52, rfl⟩
abbrev main_v21 : Ref sig .tc := ⟨.hbm, 53, rfl⟩
abbrev main_v22 : Ref sig .tc := ⟨.hbm, 54, rfl⟩
abbrev main_cst : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_cst_7 : Ref sig .tc := ⟨.hbm, 71, rfl⟩
abbrev main_call1_v0 : Ref sig .tc := ⟨.hbm, 72, rfl⟩
abbrev main_call1_v1 : Ref sig .tc := ⟨.hbm, 73, rfl⟩
abbrev main_v35 : Ref sig .tc := ⟨.hbm, 74, rfl⟩
abbrev main_v36 : Ref sig .tc := ⟨.hbm, 75, rfl⟩
abbrev main_cst_8 : Ref sig .tc := ⟨.hbm, 76, rfl⟩
abbrev main_v37 : Ref sig .tc := ⟨.hbm, 77, rfl⟩
abbrev main_c_9 : Ref sig .tc := ⟨.hbm, 78, rfl⟩
abbrev main_v38 : Ref sig .tc := ⟨.hbm, 79, rfl⟩
abbrev main_v39 : Ref sig .tc := ⟨.hbm, 80, rfl⟩
abbrev main_c_10 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_11 : Ref sig .tc := ⟨.hbm, 90, rfl⟩
abbrev main_v48 : Ref sig .tc := ⟨.hbm, 91, rfl⟩
abbrev main_v49 : Ref sig .tc := ⟨.hbm, 92, rfl⟩
abbrev main_c_12 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_13 : Ref sig .tc := ⟨.hbm, 100, rfl⟩
abbrev main_v56 : Ref sig .tc := ⟨.hbm, 101, rfl⟩
abbrev main_c_14 : Ref sig .tc := ⟨.hbm, 102, rfl⟩
abbrev main_v57 : Ref sig .tc := ⟨.hbm, 103, rfl⟩
abbrev main_v58 : Ref sig .tc := ⟨.hbm, 104, rfl⟩
abbrev main_c_15 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_c_16 : Ref sig .tc := ⟨.hbm, 112, rfl⟩
abbrev main_v65 : Ref sig .tc := ⟨.hbm, 113, rfl⟩
abbrev main_v66 : Ref sig .tc := ⟨.hbm, 114, rfl⟩
abbrev main_c_17 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_18 : Ref sig .tc := ⟨.hbm, 124, rfl⟩
abbrev main_cst_19 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_v75 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1600x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1600x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1600x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S10000x64_S10000x64_0_0 : ∀ a, (![0, 0] : Fin 2 → Nat) a + S10000x64.size a ≤ S10000x64.size a
  h_S10000x64 : 0 < S10000x64.numel
  reduces_S10000x64_S10000 : S10000x64.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S100000x1_S100000 : S100000x1.ShapeCasts S100000
  bcast_S_S1638400 : S_.BroadcastsInDim S1638400 (![] : Fin 0 → Fin S1638400.rank)
  bcast_S1638400_S1638400x1_0 : S1638400.BroadcastsInDim S1638400x1 (![0] : Fin 1 → Fin S1638400x1.rank)
  shapeCasts_S1638400_S12800x128 : S1638400.ShapeCasts S12800x128
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  shapeCasts_S12800x128_S1638400 : S12800x128.ShapeCasts S1638400
  bcast_S_S81920 : S_.BroadcastsInDim S81920 (![] : Fin 0 → Fin S81920.rank)
  shapeCasts_S81920_S16384x5 : S81920.ShapeCasts S16384x5
  reducesTo_S16384x5_S16384_d1 : S16384x5.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  reducesTo_S16384x64_S16384_d1 : S16384x64.ReducesTo [1] S16384
  gather_S100000_S1638400x1_S1638400_n_0_n_n_0_1_1_wf : GatherDims.WF S100000 S1638400x1 S1638400 [] [0] [] [0] [] 1 ![1]
  gather_S16384_S1638400x1_S1638400_n_0_n_n_0_1_1_wf : GatherDims.WF S16384 S1638400x1 S1638400 [] [0] [] [0] [] 1 ![1]
  scatter_S81920_S1638400x1_S1638400_n_0_0_1_wf : ScatterDims.WF S81920 S1638400x1 S1638400 [] [0] [0] 1
  gather_S100000x64_S16384x1_S16384x64_1_0_n_n_0_1_164_wf : GatherDims.WF S100000x64 S16384x1 S16384x64 [1] [0] [] [0] [] 1 ![1, 64]
  gather_S100000_S16384x1_S16384_n_0_n_n_0_1_1_wf : GatherDims.WF S100000 S16384x1 S16384 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1600x128.size a ≤ S12800x128.size a
  hwx1_0 : ∀ i : grid1.Coords, EltTy.bits .i32 = 32 ∨ (Rect.block (s := S12800x128) S1600x128.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1600x128.size a ≤ S12800x128.size a
  hwx1_1 : ∀ i : grid1.Coords, EltTy.bits .f32 = 32 ∨ (Rect.block (s := S12800x128) S1600x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1600x128.size a ≤ S12800x128.size a
  hwx1_2 : ∀ i : grid1.Coords, EltTy.bits .i32 = 32 ∨ (Rect.block (s := S12800x128) S1600x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1600x128.size a ≤ S12800x128.size a
  hwx1_3 : ∀ i : grid1.Coords, EltTy.bits .f32 = 32 ∨ (Rect.block (s := S12800x128) S1600x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1600x128.size a ≤ S12800x128.size a
  hwx1_4 : ∀ i : grid1.Coords, EltTy.bits .f32 = 32 ∨ (Rect.block (s := S12800x128) S1600x128.size (cc1_transform_4 i) (hinb1_4 i)).WholeWords (EltTy.packing .f32)

variable [Facts₀]

def gather_S100000_S1638400x1_S1638400_n_0_n_n_0_1_1 : GatherDims S100000 S1638400x1 S1638400 where
  offsetDims := []
  collapsedSliceDims := [0]
  operandBatchingDims := []
  startIndicesBatchingDims := []
  startIndexMap := [0]
  indexVectorDim := 1
  sliceSizes := ![1]
  wf := gather_S100000_S1638400x1_S1638400_n_0_n_n_0_1_1_wf
def gather_S16384_S1638400x1_S1638400_n_0_n_n_0_1_1 : GatherDims S16384 S1638400x1 S1638400 where
  offsetDims := []
  collapsedSliceDims := [0]
  operandBatchingDims := []
  startIndicesBatchingDims := []
  startIndexMap := [0]
  indexVectorDim := 1
  sliceSizes := ![1]
  wf := gather_S16384_S1638400x1_S1638400_n_0_n_n_0_1_1_wf
def scatter_S81920_S1638400x1_S1638400_n_0_0_1 : ScatterDims S81920 S1638400x1 S1638400 where
  updateWindowDims := []
  insertedWindowDims := [0]
  scatterDimsToOperandDims := [0]
  indexVectorDim := 1
  wf := scatter_S81920_S1638400x1_S1638400_n_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf

abbrev win0_0 : Pipeline.Window sig grid0 :=
  Pipeline.Window.ofSpec (Memref.whole main_arg6) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v17) S1600x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1600x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1600x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20_0) S1600x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20_1) S1600x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384 : Shape := ⟨1, ![16384]⟩
abbrev S1638400 : Shape := ⟨1, ![1638400]⟩
abbrev S100000x64 : Shape := ⟨2, ![100000, 64]⟩
abbrev S100000 : Shape := ⟨1, ![100000]⟩
abbrev S_ : Shape := ⟨0, ![]⟩
abbrev S1638400x1 : Shape := ⟨2, ![1638400, 1]⟩
abbrev S1638400x64 : Shape := ⟨2, ![1638400, 64]⟩
abbrev S81920 : Shape := ⟨1, ![81920]⟩
abbrev S16384x5 : Shape := ⟨2, ![16384, 5]⟩
abbrev S16384x1 : Shape := ⟨2, ![16384, 1]⟩
abbrev S16384x64 : Shape := ⟨2, ![16384, 64]⟩

abbrev nBuf : Space → Nat
  | .hbm => 136
  | .vmem => 0
  | .smem => 0
  | _ => 0

abbrev hbmTy0_0 (i : Nat) : BufTy := match i % 128 with
  | 0 => ⟨S16384, .i32⟩
  | 1 => ⟨S16384, .i32⟩
  | 2 => ⟨S1638400, .i32⟩
  | 3 => ⟨S1638400, .i32⟩
  | 4 => ⟨S100000x64, .f32⟩
  | 5 => ⟨S100000x64, .f32⟩
  | 6 => ⟨S100000x64, .f32⟩
  | 7 => ⟨S100000, .f32⟩
  | 8 => ⟨S100000, .f32⟩
  | 9 => ⟨S_, .f32⟩
  | 10 => ⟨S_, .i32⟩
  | 11 => ⟨S1638400, .i32⟩
  | 12 => ⟨S1638400, .i1⟩
  | 13 => ⟨S_, .i32⟩
  | 14 => ⟨S1638400, .i32⟩
  | 15 => ⟨S1638400, .i32⟩
  | 16 => ⟨S1638400, .i32⟩
  | 17 => ⟨S1638400x1, .i32⟩
  | 18 => ⟨S1638400x64, .f32⟩
  | 19 => ⟨S_, .f32⟩
  | 20 => ⟨S1638400, .f32⟩
  | 21 => ⟨S_, .i32⟩
  | 22 => ⟨S_, .i32⟩
  | 23 => ⟨S1638400, .i32⟩
  | 24 => ⟨S1638400, .i32⟩
  | 25 => ⟨S1638400, .i32⟩
  | 26 => ⟨S_, .i32⟩
  | 27 => ⟨S1638400, .i32⟩
  | 28 => ⟨S1638400, .i1⟩
  | 29 => ⟨S1638400, .i32⟩
  | 30 => ⟨S1638400, .i32⟩
  | 31 => ⟨S_, .i32⟩
  | 32 => ⟨S1638400, .i32⟩
  | 33 => ⟨S1638400, .i1⟩
  | 34 => ⟨S1638400, .i1⟩
  | 35 => ⟨S_, .i32⟩
  | 36 => ⟨S1638400, .i32⟩
  | 37 => ⟨S1638400, .i32⟩
  | 38 => ⟨S1638400, .i32⟩
  | 39 => ⟨S_, .i32⟩
  | 40 => ⟨S1638400, .i32⟩
  | 41 => ⟨S1638400, .i1⟩
  | 42 => ⟨S_, .i32⟩
  | 43 => ⟨S1638400, .i32⟩
  | 44 => ⟨S1638400, .i32⟩
  | 45 => ⟨S1638400, .i32⟩
  | 46 => ⟨S1638400x1, .i32⟩
  | 47 => ⟨S1638400, .i32⟩
  | 48 => ⟨S1638400, .i1⟩
  | 49 => ⟨S_, .f32⟩
  | 50 => ⟨S_, .f32⟩
  | 51 => ⟨S1638400, .f32⟩
  | 52 => ⟨S1638400, .f32⟩
  | 53 => ⟨S_, .f32⟩
  | 54 => ⟨S81920, .f32⟩
  | 55 => ⟨S1638400x1, .i32⟩
  | 56 => ⟨S81920, .f32⟩
  | 57 => ⟨S_, .f32⟩
  | 58 => ⟨S_, .f32⟩
  | 59 => ⟨S1638400, .f32⟩
  | 60 => ⟨S1638400, .f32⟩
  | 61 => ⟨S1638400, .f32⟩
  | 62 => ⟨S_, .f32⟩
  | 63 => ⟨S81920, .f32⟩
  | 64 => ⟨S1638400x1, .i32⟩
  | 65 => ⟨S1638400, .f32⟩
  | 66 => ⟨S81920, .f32⟩
  | 67 => ⟨S_, .f32⟩
  | 68 => ⟨S81920, .f32⟩
  | 69 => ⟨S81920, .i1⟩
  | 70 => ⟨S_, .f32⟩
  | 71 => ⟨S81920, .f32⟩
  | 72 => ⟨S81920, .f32⟩
  | 73 => ⟨S81920, .f32⟩
  | 74 => ⟨S81920, .f32⟩
  | 75 => ⟨S_, .f32⟩
  | 76 => ⟨S_, .f32⟩
  | 77 => ⟨S81920, .f32⟩
  | 78 => ⟨S81920, .f32⟩
  | 79 => ⟨S16384x5, .f32⟩
  | 80 => ⟨S_, .f32⟩
  | 81 => ⟨S16384, .f32⟩
  | 82 => ⟨S_, .i32⟩
  | 83 => ⟨S16384, .i32⟩
  | 84 => ⟨S16384, .i1⟩
  | 85 => ⟨S_, .i32⟩
  | 86 => ⟨S16384, .i32⟩
  | 87 => ⟨S16384, .i32⟩
  | 88 => ⟨S16384, .i32⟩
  | 89 => ⟨S16384x1, .i32⟩
  | 90 => ⟨S16384x64, .f32⟩
  | 91 => ⟨S16384x1, .f32⟩
  | 92 => ⟨S16384x64, .f32⟩
  | 93 => ⟨S16384x64, .f32⟩
  | 94 => ⟨S_, .i32⟩
  | 95 => ⟨S16384, .i32⟩
  | 96 => ⟨S16384, .i1⟩
  | 97 => ⟨S_, .i32⟩
  | 98 => ⟨S16384, .i32⟩
  | 99 => ⟨S16384, .i32⟩
  | 100 => ⟨S16384, .i32⟩
  | 101 => ⟨S16384x1, .i32⟩
  | 102 => ⟨S16384x64, .f32⟩
  | 103 => ⟨S16384x64, .f32⟩
  | 104 => ⟨S_, .f32⟩
  | 105 => ⟨S16384, .f32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S16384, .f32⟩
  | 115 => ⟨S16384, .f32⟩
  | 116 => ⟨S_, .i32⟩
  | 117 => ⟨S16384, .i32⟩
  | 118 => ⟨S16384, .i1⟩
  | 119 => ⟨S_, .i32⟩
  | 120 => ⟨S16384, .i32⟩
  | 121 => ⟨S16384, .i32⟩
  | 122 => ⟨S16384, .i32⟩
  | 123 => ⟨S16384x1, .i32⟩
  | 124 => ⟨S16384, .f32⟩
  | 125 => ⟨S16384, .f32⟩
  | 126 => ⟨S16384, .f32⟩
  | 127 => ⟨S16384, .f32⟩
  | _ => ⟨S16384, .i32⟩

abbrev hbmTy0_1 (i : Nat) : BufTy := match i % 128 with
  | 0 => ⟨S_, .f32⟩
  | 1 => ⟨S_, .f32⟩
  | 2 => ⟨S_, .f32⟩
  | 3 => ⟨S16384, .f32⟩
  | 4 => ⟨S16384, .f32⟩
  | 5 => ⟨S_, .f32⟩
  | 6 => ⟨S16384, .f32⟩
  | 7 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v8 : Ref sig .tc := ⟨.hbm, 38, rfl⟩
abbrev main_c_2 : Ref sig .tc := ⟨.hbm, 39, rfl⟩
abbrev main_v9 : Ref sig .tc := ⟨.hbm, 40, rfl⟩
abbrev main_v10 : Ref sig .tc := ⟨.hbm, 41, rfl⟩
abbrev main_c_3 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v17 : Ref sig .tc := ⟨.hbm, 52, rfl⟩
abbrev main_cst_5 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_cst_6 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_v21 : Ref sig .tc := ⟨.hbm, 61, rfl⟩
abbrev main_cst_8 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_9 : Ref sig .tc := ⟨.hbm, 67, rfl⟩
abbrev main_v26 : Ref sig .tc := ⟨.hbm, 68, rfl⟩
abbrev main_v27 : Ref sig .tc := ⟨.hbm, 69, rfl⟩
abbrev main_cst_10 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_cst_11 : Ref sig .tc := ⟨.hbm, 75, rfl⟩
abbrev main_call3_v0 : Ref sig .tc := ⟨.hbm, 76, rfl⟩
abbrev main_call3_v1 : Ref sig .tc := ⟨.hbm, 77, rfl⟩
abbrev main_v32 : Ref sig .tc := ⟨.hbm, 78, rfl⟩
abbrev main_v33 : Ref sig .tc := ⟨.hbm, 79, rfl⟩
abbrev main_cst_12 : Ref sig .tc := ⟨.hbm, 80, rfl⟩
abbrev main_v34 : Ref sig .tc := ⟨.hbm, 81, rfl⟩
abbrev main_c_13 : Ref sig .tc := ⟨.hbm, 82, rfl⟩
abbrev main_v35 : Ref sig .tc := ⟨.hbm, 83, rfl⟩
abbrev main_v36 : Ref sig .tc := ⟨.hbm, 84, rfl⟩
abbrev main_c_14 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_c_15 : Ref sig .tc := ⟨.hbm, 94, rfl⟩
abbrev main_v45 : Ref sig .tc := ⟨.hbm, 95, rfl⟩
abbrev main_v46 : Ref sig .tc := ⟨.hbm, 96, rfl⟩
abbrev main_c_16 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_17 : Ref sig .tc := ⟨.hbm, 104, rfl⟩
abbrev main_v53 : Ref sig .tc := ⟨.hbm, 105, rfl⟩
abbrev main_c_18 : Ref sig .tc := ⟨.hbm, 106, rfl⟩
abbrev main_v54 : Ref sig .tc := ⟨.hbm, 107, rfl⟩
abbrev main_v55 : Ref sig .tc := ⟨.hbm, 108, rfl⟩
abbrev main_c_19 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_c_20 : Ref sig .tc := ⟨.hbm, 116, rfl⟩
abbrev main_v62 : Ref sig .tc := ⟨.hbm, 117, rfl⟩
abbrev main_v63 : Ref sig .tc := ⟨.hbm, 118, rfl⟩
abbrev main_c_21 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_22 : Ref sig .tc := ⟨.hbm, 128, rfl⟩
abbrev main_cst_23 : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_v72 : Ref sig .tc := ⟨.hbm, 135, rfl⟩

abbrev nD : Nat := 1
abbrev τ : Topo := Topo.v7x

variable {F : FTy → Type} [FloatOps F]

class Facts₀ : Prop where
  bcast_S_S1638400 : S_.BroadcastsInDim S1638400 (![] : Fin 0 → Fin S1638400.rank)
  bcast_S1638400_S1638400x1_0 : S1638400.BroadcastsInDim S1638400x1 (![0] : Fin 1 → Fin S1638400x1.rank)
  reducesTo_S1638400x64_S1638400_d1 : S1638400x64.ReducesTo [1] S1638400
  h_S_ : 0 < S_.numel
  bcast_S_S81920 : S_.BroadcastsInDim S81920 (![] : Fin 0 → Fin S81920.rank)
  shapeCasts_S81920_S16384x5 : S81920.ShapeCasts S16384x5
  reducesTo_S16384x5_S16384_d1 : S16384x5.ReducesTo [1] S16384
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  reducesTo_S16384x64_S16384_d1 : S16384x64.ReducesTo [1] S16384
  gather_S100000x64_S1638400x1_S1638400x64_1_0_n_n_0_1_164_wf : GatherDims.WF S100000x64 S1638400x1 S1638400x64 [1] [0] [] [0] [] 1 ![1, 64]
  gather_S16384_S1638400x1_S1638400_n_0_n_n_0_1_1_wf : GatherDims.WF S16384 S1638400x1 S1638400 [] [0] [] [0] [] 1 ![1]
  scatter_S81920_S1638400x1_S1638400_n_0_0_1_wf : ScatterDims.WF S81920 S1638400x1 S1638400 [] [0] [0] 1
  gather_S100000x64_S16384x1_S16384x64_1_0_n_n_0_1_164_wf : GatherDims.WF S100000x64 S16384x1 S16384x64 [1] [0] [] [0] [] 1 ![1, 64]
  gather_S100000_S16384x1_S16384_n_0_n_n_0_1_1_wf : GatherDims.WF S100000 S16384x1 S16384 [] [0] [] [0] [] 1 ![1]

variable [Facts₀]

def gather_S100000x64_S1638400x1_S1638400x64_1_0_n_n_0_1_164 : GatherDims S100000x64 S1638400x1 S1638400x64 where
  offsetDims := [1]
  collapsedSliceDims := [0]
  operandBatchingDims := []
  startIndicesBatchingDims := []
  startIndexMap := [0]
  indexVectorDim := 1
  sliceSizes := ![1, 64]
  wf := gather_S100000x64_S1638400x1_S1638400x64_1_0_n_n_0_1_164_wf
def gather_S16384_S1638400x1_S1638400_n_0_n_n_0_1_1 : GatherDims S16384 S1638400x1 S1638400 where
  offsetDims := []
  collapsedSliceDims := [0]
  operandBatchingDims := []
  startIndicesBatchingDims := []
  startIndexMap := [0]
  indexVectorDim := 1
  sliceSizes := ![1]
  wf := gather_S16384_S1638400x1_S1638400_n_0_n_n_0_1_1_wf
def scatter_S81920_S1638400x1_S1638400_n_0_0_1 : ScatterDims S81920 S1638400x1 S1638400 where
  updateWindowDims := []
  insertedWindowDims := [0]
  scatterDimsToOperandDims := [0]
  indexVectorDim := 1
  wf := scatter_S81920_S1638400x1_S1638400_n_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def gather_S100000_S16384x1_S16384_n_0_n_n_0_1_1 : GatherDims S100000 S16384x1 S16384 where
  offsetDims := []
  collapsedSliceDims := [0]
  operandBatchingDims := []
  startIndicesBatchingDims := []
  startIndexMap := [0]
  indexVectorDim := 1
  sliceSizes := ![1]
  wf := gather_S100000_S16384x1_S16384_n_0_n_n_0_1_1_wf

class Facts : Prop extends Facts₀ where

variable [Facts]
-- ==== Proof.KerRun.lean ====
/-
  The idealized kernel program's run with EVERY unscoped buffer named at the end: @main is two kernel
  regions among stretches of host operations; launched from any memory with zero counters every weakly
  fair execution terminates, and each unscoped buffer ends at the last boundary's contents — the fold
  of the host stretches and of the regions' write-backs over the launch memory.
-/
import proofs.«121189_j57148834841202_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's segments, the last thread state read against the final memory: every
    unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- A value of @main is an unscoped buffer. -/
theorem mem_uc (b : Ref sig .tc) (h : ¬ (Proc.devRef .tc b : DevRef τ sig).isScoped) : Proc.devRef .tc b ∈ Pipeline.ucRefs τ sig :=
  Gen.mem_uc b h

end Cert.KernelIdeal.KerRun

end
-- ==== Proof.Spec.lean ====
/-
  What both programs compute, as pure functions of the ten argument arrays (B = 16384 samples, T = 1638400
  ratings in 5·B segments, tables of 100000 rows): the sample a rating belongs to (segment id floor-divided
  by 5) and that sample's target item; the gathered row of the bucket table summed over its 64 columns;
  a rating's contribution (0 where its item is the sample's target, else that row sum) and its count (0 / 1);
  and the shared tail — the two accumulating scatters into the 5·B segments, sum / sqrt(max(count, 1))
  where the count is positive, the five buckets of a sample added, the result added to every column of the
  user's row, the dot product with the item's row, the two biases, the global average, the clip to [1, 5].
-/
import proofs.«121189_j57148834841202_1_alg».proof.Proof.Gen.ReferenceIdeal

noncomputable section

namespace Cert.Spec

open Cert.ReferenceIdeal Cert.ReferenceIdeal.Gen Idealize.ShloMosaic

variable {F : FTy → Type} [FloatOps F]

/-- The segment id floor-divided by 5 (the quotient truncated toward zero, less one where the signs differ and
    the remainder is not zero): the sample of a rating. -/
def fdiv (a3 : IVec S1638400 32) : IVec S1638400 32 :=
  (select (andi (cmpi .ne (signi a3) (broadcastInDim S1638400 ![] bcast_S_S1638400 (signi (constantI S_ 32 5#32)))) (cmpi .ne (Host.remsi a3 (broadcastInDim S1638400 ![] bcast_S_S1638400 (constantI S_ 32 5#32))) (broadcastInDim S1638400 ![] bcast_S_S1638400 (constantI S_ 32 0#32)))) (subi (Host.divsi a3 (broadcastInDim S1638400 ![] bcast_S_S1638400 (constantI S_ 32 5#32))) (broadcastInDim S1638400 ![] bcast_S_S1638400 (constantI S_ 32 1#32))) (Host.divsi a3 (broadcastInDim S1638400 ![] bcast_S_S1638400 (constantI S_ 32 5#32))))

/-- The target item of each rating's sample: the item array at the sample, a negative sample wrapped by 16384. -/
def tgt (a1 : IVec S16384 32) (a3 : IVec S1638400 32) : IVec S1638400 32 :=
  (Host.gather gather_S16384_S1638400x1_S1638400_n_0_n_n_0_1_1 a1 (broadcastInDim S1638400x1 ![0] bcast_S1638400_S1638400x1_0 (select (cmpi .slt (fdiv a3) (broadcastInDim S1638400 ![] bcast_S_S1638400 (constantI S_ 32 0#32))) (addi (fdiv a3) (broadcastInDim S1638400 ![] bcast_S_S1638400 (constantI S_ 32 16384#32))) (fdiv a3))))

/-- Each rating's item as a row index of the bucket table, a negative one wrapped by 100000, carried as a column. -/
def rowIdx (a2 : IVec S1638400 32) : IVec S1638400x1 32 :=
  (broadcastInDim S1638400x1 ![0] bcast_S1638400_S1638400x1_0 (select (cmpi .slt a2 (broadcastInDim S1638400 ![] bcast_S_S1638400 (constantI S_ 32 0#32))) (addi a2 (broadcastInDim S1638400 ![] bcast_S_S1638400 (constantI S_ 32 100000#32))) a2))

/-- The gathered row of the bucket table summed over its columns, from the zero word. -/
def rowsumRef (a2 : IVec S1638400 32) (a6 : FVec F S100000x64 .f32) : FVec F S1638400 .f32 :=
  (Host.reduceAdd (F := F) (Host.gather gather_S100000x64_S1638400x1_S1638400x64_1_0_n_n_0_1_164 a6 (rowIdx a2)) (constant (F := F) S_ .f32 0x00000000#32) reducesTo_S1638400x64_S1638400_d1 h_S_)

/-- A rating's contribution: 0 where its item is its sample's target, else its row sum. -/
def contribRef (a1 : IVec S16384 32) (a2 a3 : IVec S1638400 32) (a6 : FVec F S100000x64 .f32) : FVec F S1638400 .f32 :=
  (select (cmpi .eq a2 (tgt a1 a3)) (broadcastInDim S1638400 ![] bcast_S_S1638400 (constant (F := F) S_ .f32 0x00000000#32)) (rowsumRef a2 a6))

/-- A rating's count: 0 where its item is its sample's target, else 1. -/
def cntRef (a1 : IVec S16384 32) (a2 a3 : IVec S1638400 32) : FVec F S1638400 .f32 :=
  (select (cmpi .eq a2 (tgt a1 a3)) (broadcastInDim S1638400 ![] bcast_S_S1638400 (constant (F := F) S_ .f32 0x00000000#32)) (broadcastInDim S1638400 ![] bcast_S_S1638400 (constant (F := F) S_ .f32 0x3F800000#32)))

/-- Everything after the contributions and the counts. -/
def tail (contrib cnt : FVec F S1638400 .f32) (a0 a1 : IVec S16384 32) (a3 : IVec S1638400 32)
    (a4 a5 : FVec F S100000x64 .f32) (a7 a8 : FVec F S100000 .f32) (a9 : FVec F S_ .f32) : FVec F S16384 .f32 :=
  (minimumf (F := F) (broadcastInDim S16384 ![] bcast_S_S16384 (constant (F := F) S_ .f32 0x40A00000#32)) (maximumf (F := F) (broadcastInDim S16384 ![] bcast_S_S16384 (constant (F := F) S_ .f32 0x3F800000#32)) (addf (F := F) (addf (F := F) (addf (F := F) (Host.reduceAdd (F := F) (mulf (F := F) (addf (F := F) (Host.gather gather_S100000x64_S16384x1_S16384x64_1_0_n_n_0_1_164 a4 (broadcastInDim S16384x1 ![0] bcast_S16384_S16384x1_0 (select (cmpi .slt a0 (broadcastInDim S16384 ![] bcast_S_S16384 (constantI S_ 32 0#32))) (addi a0 (broadcastInDim S16384 ![] bcast_S_S16384 (constantI S_ 32 100000#32))) a0))) (broadcastInDim S16384x64 ![0, 1] bcast_S16384x1_S16384x64_0_1 (broadcastInDim S16384x1 ![0] bcast_S16384_S16384x1_0 (Host.reduceAdd (F := F) (shapeCast S16384x5 (select (cmpf (F := F) .ogt (Host.scatterAdd (F := F) scatter_S81920_S1638400x1_S1638400_n_0_0_1 (broadcastInDim S81920 ![] bcast_S_S81920 (constant (F := F) S_ .f32 0x00000000#32)) (broadcastInDim S1638400x1 ![0] bcast_S1638400_S1638400x1_0 a3) cnt) (broadcastInDim S81920 ![] bcast_S_S81920 (constant (F := F) S_ .f32 0x00000000#32))) (Host.divf (F := F) (Host.scatterAdd (F := F) scatter_S81920_S1638400x1_S1638400_n_0_0_1 (broadcastInDim S81920 ![] bcast_S_S81920 (constant (F := F) S_ .f32 0x00000000#32)) (broadcastInDim S1638400x1 ![0] bcast_S1638400_S1638400x1_0 a3) contrib) (Host.sqrt (F := F) (maximumf (F := F) (Host.scatterAdd (F := F) scatter_S81920_S1638400x1_S1638400_n_0_0_1 (broadcastInDim S81920 ![] bcast_S_S81920 (constant (F := F) S_ .f32 0x00000000#32)) (broadcastInDim S1638400x1 ![0] bcast_S1638400_S1638400x1_0 a3) cnt) (broadcastInDim S81920 ![] bcast_S_S81920 (constant (F := F) S_ .f32 0x3F800000#32))))) (broadcastInDim S81920 ![] bcast_S_S81920 (constant (F := F) S_ .f32 0x00000000#32))) shapeCasts_S81920_S16384x5) (constant (F := F) S_ .f32 0x00000000#32) reducesTo_S16384x5_S16384_d1 h_S_)))) (Host.gather gather_S100000x64_S16384x1_S16384x64_1_0_n_n_0_1_164 a5 (broadcastInDim S16384x1 ![0] bcast_S16384_S16384x1_0 (select (cmpi .slt a1 (broadcastInDim S16384 ![] bcast_S_S16384 (constantI S_ 32 0#32))) (addi a1 (broadcastInDim S16384 ![] bcast_S_S16384 (constantI S_ 32 100000#32))) a1)))) (constant (F := F) S_ .f32 0x00000000#32) reducesTo_S16384x64_S16384_d1 h_S_) (Host.gather gather_S100000_S16384x1_S16384_n_0_n_n_0_1_1 a7 (broadcastInDim S16384x1 ![0] bcast_S16384_S16384x1_0 (select (cmpi .slt a0 (broadcastInDim S16384 ![] bcast_S_S16384 (constantI S_ 32 0#32))) (addi a0 (broadcastInDim S16384 ![] bcast_S_S16384 (constantI S_ 32 100000#32))) a0)))) (Host.gather gather_S100000_S16384x1_S16384_n_0_n_n_0_1_1 a8 (broadcastInDim S16384x1 ![0] bcast_S16384_S16384x1_0 (select (cmpi .slt a1 (broadcastInDim S16384 ![] bcast_S_S16384 (constantI S_ 32 0#32))) (addi a1 (broadcastInDim S16384 ![] bcast_S_S16384 (constantI S_ 32 100000#32))) a1)))) (broadcastInDim S16384 ![] bcast_S_S16384 a9))))

/-- The result as one function of the arguments. -/
def out (a0 a1 : IVec S16384 32) (a2 a3 : IVec S1638400 32) (a4 a5 a6 : FVec F S100000x64 .f32)
    (a7 a8 : FVec F S100000 .f32) (a9 : FVec F S_ .f32) : FVec F S16384 .f32 :=
  tail (contribRef a1 a2 a3 a6) (cntRef (F := F) a1 a2 a3) a0 a1 a3 a4 a5 a7 a8 a9

end Cert.Spec

end
-- ==== Proof.LibScatterGather.lean ====
/-
  Row gathers and row scatters of StableHLO, read at an index, and the one law of the extended reals
  that lets a non-negative finite factor cross an accumulating scatter.

  * a gather of whole rows (`x[idx]` on the leading axis of a matrix, or of a vector): result row e is
    operand row `idx e`, read signed and clamped into the operand;
  * an accumulating scatter of whole rows: update row e lands on operand row `idx e` (read signed, not
    clamped) when that is a row of the operand, and nowhere otherwise;
  * on the extended reals multiplication by c distributes over a finite sum when 0 ≤ c < ⊤, so scaling
    every update that lands on an element by that element's factor scales the accumulated sum.
-/
import Idealize.ShloMosaic.PureOps.Ideal
import Idealize.ShloMosaic.PureOps.Ideal.Laws
import Idealize.ShloMosaic.Lib.ValueIdx

noncomputable section

namespace Cert.ScatterGather

open Idealize.ShloMosaic Idealize.ShloMosaic.ValueIdx

/-! ## Sums on the extended reals -/

/-- A factor `0 ≤ c < ⊤` distributes over a finite sum of extended reals. -/
theorem sum_mul_of_nonneg_ne_top {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih => rw [Finset.sum_insert ha, Finset.sum_insert ha, EReal.right_distrib_of_nonneg_of_ne_top h0 ht, ih]

/-- An accumulating scatter into zeros whose every landing update carries the factor of the element it
    lands on: the factor comes out of the accumulated sum. Only an element some update lands on needs
    its factor non-negative and finite: where nothing lands both sides are zero. -/
theorem hostScatterAdd_zero_mul {s si su : Shape} (d : ScatterDims s si su) {w : Nat} (idx : IVec si w)
    (u u' : su.Idx → EReal) (c : s.Idx → EReal)
    (hc : ∀ j i, d.resultIdx? j idx = some i → 0 ≤ c i ∧ c i ≠ ⊤)
    (h : ∀ j i, d.resultIdx? j idx = some i → u j = u' j * c i) (i : s.Idx) :
    Ideal.hostScatterAdd d (fun _ => 0) idx u i = Ideal.hostScatterAdd d (fun _ => 0) idx u' i * c i := by
  unfold Ideal.hostScatterAdd
  simp only [zero_add]
  by_cases hne : (Finset.univ.filter (fun j => d.resultIdx? j idx = some i)).Nonempty
  · obtain ⟨j0, hj0⟩ := hne
    have hci := hc j0 i (Finset.mem_filter.mp hj0).2
    rw [sum_mul_of_nonneg_ne_top _ _ hci.1 hci.2]
    exact Finset.sum_congr rfl (fun j hj => h j i (Finset.mem_filter.mp hj).2)
  · rw [Finset.not_nonempty_iff_eq_empty.mp hne]; simp

/-- The inverse square root of a positive count is a non-negative real. -/
theorem rsqrt_count {ι : Type} (s : Finset ι) (hs : s.Nonempty) :
    0 ≤ Ideal.rsqrt (0 + ∑ _j ∈ s, (1 : EReal)) ∧ Ideal.rsqrt (0 + ∑ _j ∈ s, (1 : EReal)) ≠ ⊤ := by
  have hcard : 0 < s.card := Finset.card_pos.mpr hs
  have hsum : (0 + ∑ _j ∈ s, (1 : EReal)) = ((s.card : ℝ) : EReal) := by
    rw [zero_add, Finset.sum_const, EReal.nsmul_eq_mul, mul_one]; rfl
  have hpos : (0 : ℝ) < (s.card : ℝ) := by exact_mod_cast hcard
  rw [hsum, Ideal.rsqrt_coe, if_neg (not_lt.mpr hpos.le), if_neg hpos.ne']
  exact ⟨by exact_mod_cast inv_nonneg.mpr (Real.sqrt_nonneg _), EReal.coe_ne_top _⟩

/-! ## A gather of rows -/

section Gather
variable {α : Type} {N M C w : Nat}

/-- `x[idx]` on the leading axis of `x : [N, C]` at `idx : [M]` carried as `[M, 1]`. -/
abbrev rowsDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The row a gather reads for result row `e`: the start index read signed, clamped into `[0, N - 1]`. -/
def clampRow (N : Nat) (hN : 0 < N) {M w : Nat} (idx : IVec ⟨2, ![M, 1]⟩ w) (e : Fin M) : Fin N :=
  ⟨min (idx (ix2 e (0 : Fin 1))).toInt.toNat (N - 1), by omega⟩

/-- THE ROW GATHER READ AT `(e, j)`: the operand at row `clampRow … e`, column `j`. -/
theorem gather_rows_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowsDims N M C wf) x idx y = x (ix2 (clampRow N hN idx (y 0)) (y 1)) := by
  unfold Host.gather
  congr 1
  funext a
  refine Fin.ext ?_
  match a with
  | ⟨0, _⟩ =>
    show (rowsDims N M C wf).start y idx 0 + (rowsDims N M C wf).batchCoord y 0 + (rowsDims N M C wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx y ⟨List.idxOf (0 : Fin 2) (rowsDims N M C wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N M C wf).start y idx 1 + (rowsDims N M C wf).batchCoord y 1 + (rowsDims N M C wf).offCoord y 1 = (y 1).val
    rw [GatherDims.batchCoord_eq_zero _ _ _ List.not_mem_nil]
    unfold GatherDims.start
    rw [dif_neg (show (1 : Fin 2) ∉ ([0] : List (Fin 2)) by decide)]
    simp only [Nat.zero_add, Nat.add_zero]
    unfold GatherDims.offCoord
    rw [dif_pos ((GatherDims.mem_sKept _ _).mpr ⟨(show (1 : Fin 2) ∉ ([0] : List (Fin 2)) by decide), List.not_mem_nil⟩)]
    rfl

/-- `x[idx]` of a vector `x : [N]` at `idx : [M]` carried as `[M, 1]`. -/
abbrev flatDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `clampRow … e`. -/
theorem gather_flat_apply (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatDims N M wf) x idx y = x (ix1 (clampRow N hN idx (y 0))) := by
  unfold Host.gather
  congr 1
  funext a
  obtain rfl : a = 0 := Subsingleton.elim _ _
  refine Fin.ext ?_
  show (flatDims N M wf).start y idx 0 + (flatDims N M wf).batchCoord y 0 + (flatDims N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N M wf).startIndexMap from List.mem_singleton.mpr rfl)]
  have hsi : (flatDims N M wf).siIdx y ⟨List.idxOf (0 : Fin 1) (flatDims N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

end Gather

/-! ## An accumulating scatter of rows -/

section Scatter
variable {N M C w : Nat}

/-- `x.at[idx].add(u)` on the leading axis of `x : [N, C]`, `idx : [M]` carried as `[M, 1]`, `u : [M, C]`. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem rowsScatter_start0 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 0 = (idx (ix2 (j 0) (0 : Fin 1))).toInt := by
  unfold ScatterDims.start
  rw [dif_pos (show (0 : Fin 2) ∈ (rowsScatter N M C wf).scatterDimsToOperandDims from List.mem_singleton.mpr rfl)]
  have hsi : (rowsScatter N M C wf).siIdx j ⟨List.idxOf (0 : Fin 2) (rowsScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowsScatter_start1 (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) :
    (rowsScatter N M C wf).start j idx 1 = 0 := by
  unfold ScatterDims.start
  rw [dif_neg (show (1 : Fin 2) ∉ ([0] : List (Fin 2)) by decide)]

theorem rowsScatter_window0 (wf : ScatterDims.WF ⟨2, ![N, C]⟩ ⟨2, ![M, 1]⟩ ⟨2, ![M, C]⟩ [1] [0] [0] 1)
    (j : (⟨2, ![M, C]⟩ : Shape).Idx) : (rowsScatter N M C wf).window j 0 = 0 := by
  unfold ScatterDims.window
  have h : (0 : Fin 2) ∉ (rowsScatter N M C wf).sKept := by
    show (0 : Fin 2) ∉ ([1] : List (Fin 2)); decide
  rw [dif_neg h]

theorem rowsScatter_window1 (wf : ScatterDims.WF ⟨2, ![N, C]⟩ ⟨2, ![M, 1]⟩ ⟨2, ![M, C]⟩ [1] [0] [0] 1)
    (j : (⟨2, ![M, C]⟩ : Shape).Idx) : (rowsScatter N M C wf).window j 1 = (j 1).val := by
  unfold ScatterDims.window
  have h : (1 : Fin 2) ∈ (rowsScatter N M C wf).sKept := by
    show (1 : Fin 2) ∈ ([1] : List (Fin 2)); decide
  rw [dif_pos h]
  rfl

/-- WHERE A ROW UPDATE LANDS: element `(e, k)` of the updates lands on `(n, k')` exactly when the index of
    row `e`, read signed, is `n` and `k = k'`. -/
theorem rowsScatter_resultIdx?_eq_some_iff (wf : ScatterDims.WF ⟨2, ![N, C]⟩ ⟨2, ![M, 1]⟩ ⟨2, ![M, C]⟩ [1] [0] [0] 1)
    (j : (⟨2, ![M, C]⟩ : Shape).Idx) (idx : IVec ⟨2, ![M, 1]⟩ w) (i : (⟨2, ![N, C]⟩ : Shape).Idx) :
    (rowsScatter N M C wf).resultIdx? j idx = some i ↔
      (idx (ix2 (j 0) (0 : Fin 1))).toInt = ((i 0).val : Int) ∧ (j 1).val = (i 1).val := by
  have hi0 : (i 0).val < N := (i 0).isLt
  have hj1 : (j 1).val < C := (j 1).isLt
  unfold ScatterDims.resultIdx?
  split
  · rename_i h
    rw [Option.some.injEq]
    constructor
    · intro e
      have e0 := congrArg (fun f => (f 0).val) e
      have e1 := congrArg (fun f => (f 1).val) e
      simp only [rowsScatter_start0, rowsScatter_start1, rowsScatter_window0, rowsScatter_window1] at e0 e1
      have h0 := h 0
      simp only [rowsScatter_start0, rowsScatter_window0] at h0
      constructor
      · omega
      · omega
    · rintro ⟨e0, e1⟩
      funext a
      refine Fin.ext ?_
      match a with
      | ⟨0, _⟩ =>
        show ((rowsScatter N M C wf).start j idx 0 + ((rowsScatter N M C wf).window j 0 : Int)).toNat = (i 0).val
        rw [rowsScatter_start0, rowsScatter_window0, e0]; omega
      | ⟨1, _⟩ =>
        show ((rowsScatter N M C wf).start j idx 1 + ((rowsScatter N M C wf).window j 1 : Int)).toNat = (i 1).val
        rw [rowsScatter_start1, rowsScatter_window1]; omega
  · rename_i h
    constructor
    · intro e; exact absurd e (by simp)
    · rintro ⟨e0, e1⟩
      exfalso; apply h
      intro a
      match a with
      | ⟨0, _⟩ =>
        show 0 ≤ (rowsScatter N M C wf).start j idx 0 + ((rowsScatter N M C wf).window j 0 : Int) ∧
          (rowsScatter N M C wf).start j idx 0 + ((rowsScatter N M C wf).window j 0 : Int) < ((⟨2, ![N, C]⟩ : Shape).size 0 : Int)
        rw [rowsScatter_start0, rowsScatter_window0, e0]
        refine ⟨by omega, ?_⟩
        show ((i 0).val : Int) + ((0 : Nat) : Int) < (N : Int)
        omega
      | ⟨1, _⟩ =>
        show 0 ≤ (rowsScatter N M C wf).start j idx 1 + ((rowsScatter N M C wf).window j 1 : Int) ∧
          (rowsScatter N M C wf).start j idx 1 + ((rowsScatter N M C wf).window j 1 : Int) < ((⟨2, ![N, C]⟩ : Shape).size 1 : Int)
        rw [rowsScatter_start1, rowsScatter_window1]
        refine ⟨by omega, ?_⟩
        show (0 : Int) + ((j 1).val : Int) < (C : Int)
        omega

/-- `x.at[idx].add(u)` of a vector `x : [N]`, `idx : [M]` carried as `[M, 1]`, `u : [M]`. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem flatScatter_start0 (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (flatScatter N M wf).start j idx 0 = (idx (ix2 (j 0) (0 : Fin 1))).toInt := by
  unfold ScatterDims.start
  rw [dif_pos (show (0 : Fin 1) ∈ (flatScatter N M wf).scatterDimsToOperandDims from List.mem_singleton.mpr rfl)]
  have hsi : (flatScatter N M wf).siIdx j ⟨List.idxOf (0 : Fin 1) (flatScatter N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem flatScatter_window0 (wf : ScatterDims.WF ⟨1, ![N]⟩ ⟨2, ![M, 1]⟩ ⟨1, ![M]⟩ [] [0] [0] 1)
    (j : (⟨1, ![M]⟩ : Shape).Idx) : (flatScatter N M wf).window j 0 = 0 := by
  unfold ScatterDims.window
  have h : (0 : Fin 1) ∉ (flatScatter N M wf).sKept := by
    show (0 : Fin 1) ∉ ([] : List (Fin 1)); exact List.not_mem_nil
  rw [dif_neg h]

/-- WHERE A VECTOR UPDATE LANDS: element `e` lands on `n` exactly when its index, read signed, is `n`. -/
theorem flatScatter_resultIdx?_eq_some_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (flatScatter N M wf).resultIdx? j idx = some i ↔ (idx (ix2 (j 0) (0 : Fin 1))).toInt = ((i 0).val : Int) := by
  have hi0 : (i 0).val < N := (i 0).isLt
  unfold ScatterDims.resultIdx?
  split
  · rename_i h
    rw [Option.some.injEq]
    constructor
    · intro e
      have e0 := congrArg (fun f => (f 0).val) e
      simp only [flatScatter_start0, flatScatter_window0] at e0
      have h0 := h 0
      simp only [flatScatter_start0, flatScatter_window0] at h0
      omega
    · intro e0
      funext a
      obtain rfl : a = 0 := Subsingleton.elim _ _
      refine Fin.ext ?_
      show ((flatScatter N M wf).start j idx 0 + ((flatScatter N M wf).window j 0 : Int)).toNat = (i 0).val
      rw [flatScatter_start0, flatScatter_window0, e0]; omega
  · rename_i h
    constructor
    · intro e; exact absurd e (by simp)
    · intro e0
      exfalso; apply h
      intro a
      obtain rfl : a = 0 := Subsingleton.elim _ _
      show 0 ≤ (flatScatter N M wf).start j idx 0 + ((flatScatter N M wf).window j 0 : Int) ∧
        (flatScatter N M wf).start j idx 0 + ((flatScatter N M wf).window j 0 : Int) < ((⟨1, ![N]⟩ : Shape).size 0 : Int)
      rw [flatScatter_start0, flatScatter_window0, e0]
      refine ⟨by omega, ?_⟩
      show ((i 0).val : Int) + ((0 : Nat) : Int) < (N : Int)
      omega

end Scatter

end Cert.ScatterGather

end
-- ==== Proof.KerFolds.lean ====
/-
  The idealized kernel program's stretches of host operations as folds over an arbitrary valuation of the
  buffers: what the three stretches between the two regions leave in the second region's three input arrays
  (the items, the gathered row sums and the target items, each laid out [12800,128]) and in the arguments,
  and what the four stretches after the second region leave in the result — the specification's tail of the
  two output arrays laid out flat again.
-/
import proofs.«121189_j57148834841202_1_alg».proof.Proof.Gen.KernelIdeal.Launch
import proofs.«121189_j57148834841202_1_alg».proof.Proof.Spec
import proofs.«121189_j57148834841202_1_alg».proof.Proof.LibScatterGather
import Idealize.ShloMosaic.Lib.StableHlo.Run

noncomputable section

namespace Cert.KernelIdeal.KerFolds

open Cert.KernelIdeal Cert.KernelIdeal.Gen
open Idealize.ShloMosaic Idealize.ShloMosaic.TcCoe Idealize.SL.Sem Idealize.ShloMosaic.StableHlo

variable {F : FTy → Type} [FloatOps F]

/-! ## Between the regions -/

set_option maxRecDepth 16384 in
set_option maxHeartbeats 2000000 in
/-- The first input array of the second region: the items, laid out [12800,128]. -/
theorem mid_v17 (X : Valuation τ sig (Elt F)) :
    after hostOps1_2 (after hostOps1_1 (after hostOps1 X)) (Proc.devRef .tc main_v17)
      = shapeCast S12800x128 (X (Proc.devRef .tc main_arg2)) shapeCasts_S1638400_S12800x128 := by
  simp only [hostOps1_2, hostOps1_1, hostOps1]
  after_results_simp
  rfl

set_option maxRecDepth 16384 in
set_option maxHeartbeats 2000000 in
/-- The second: the first region's [100000,1] array read flat, gathered at the items' rows, laid out [12800,128]. -/
theorem mid_v18 (X : Valuation τ sig (Elt F)) :
    after hostOps1_2 (after hostOps1_1 (after hostOps1 X)) (Proc.devRef .tc main_v18)
      = shapeCast S12800x128 (Host.gather (Cert.ScatterGather.flatDims 100000 1638400 gather_S100000_S1638400x1_S1638400_n_0_n_n_0_1_1_wf)
          (shapeCast S100000 (X (Proc.devRef .tc main_v0)) shapeCasts_S100000x1_S100000) (Cert.Spec.rowIdx (X (Proc.devRef .tc main_arg2))))
          shapeCasts_S1638400_S12800x128 := by
  simp only [hostOps1_2, hostOps1_1, hostOps1]
  after_results_simp
  rfl

set_option maxRecDepth 16384 in
set_option maxHeartbeats 4000000 in
/-- The third: the target item of each rating's sample, laid out [12800,128]. -/
theorem mid_v19 (X : Valuation τ sig (Elt F)) :
    after hostOps1_2 (after hostOps1_1 (after hostOps1 X)) (Proc.devRef .tc main_v19)
      = shapeCast S12800x128 (Cert.Spec.tgt (X (Proc.devRef .tc main_arg1)) (X (Proc.devRef .tc main_arg3))) shapeCasts_S1638400_S12800x128 := by
  simp only [hostOps1_2, hostOps1_1, hostOps1]
  after_results_simp
  rfl

set_option maxRecDepth 16384 in
set_option maxHeartbeats 2000000 in
/-- No operation between the regions writes argument 0. -/
theorem mid_arg0 (X : Valuation τ sig (Elt F)) :
    after hostOps1_2 (after hostOps1_1 (after hostOps1 X)) (Proc.devRef .tc main_arg0) = (X (Proc.devRef .tc main_arg0)) := by
  simp only [hostOps1_2, hostOps1_1, hostOps1]
  after_results_simp

set_option maxRecDepth 16384 in
set_option maxHeartbeats 2000000 in
/-- No operation between the regions writes argument 1. -/
theorem mid_arg1 (X : Valuation τ sig (Elt F)) :
    after hostOps1_2 (after hostOps1_1 (after hostOps1 X)) (Proc.devRef .tc main_arg1) = (X (Proc.devRef .tc main_arg1)) := by
  simp only [hostOps1_2, hostOps1_1, hostOps1]
  after_results_simp

set_option maxRecDepth 16384 in
set_option maxHeartbeats 2000000 in
/-- No operation between the regions writes argument 2. -/
theorem mid_arg2 (X : Valuation τ sig (Elt F)) :
    after hostOps1_2 (after hostOps1_1 (after hostOps1 X)) (Proc.devRef .tc main_arg2) = (X (Proc.devRef .tc main_arg2)) := by
  simp only [hostOps1_2, hostOps1_1, hostOps1]
  after_results_simp

set_option maxRecDepth 16384 in
set_option maxHeartbeats 2000000 in
/-- No operation between the regions writes argument 3. -/
theorem mid_arg3 (X : Valuation τ sig (Elt F)) :
    after hostOps1_2 (after hostOps1_1 (after hostOps1 X)) (Proc.devRef .tc main_arg3) = (X (Proc.devRef .tc main_arg3)) := by
  simp only [hostOps1_2, hostOps1_1, hostOps1]
  after_results_simp

set_option maxRecDepth 16384 in
set_option maxHeartbeats 2000000 in
/-- No operation between the regions writes argument 4. -/
theorem mid_arg4 (X : Valuation τ sig (Elt F)) :
    after hostOps1_2 (after hostOps1_1 (after hostOps1 X)) (Proc.devRef .tc main_arg4) = (X (Proc.devRef .tc main_arg4)) := by
  simp only [hostOps1_2, hostOps1_1, hostOps1]
  after_results_simp

set_option maxRecDepth 16384 in
set_option maxHeartbeats 2000000 in
/-- No operation between the regions writes argument 5. -/
theorem mid_arg5 (X : Valuation τ sig (Elt F)) :
    after hostOps1_2 (after hostOps1_1 (after hostOps1 X)) (Proc.devRef .tc main_arg5) = (X (Proc.devRef .tc main_arg5)) := by
  simp only [hostOps1_2, hostOps1_1, hostOps1]
  after_results_simp

set_option maxRecDepth 16384 in
set_option maxHeartbeats 2000000 in
/-- No operation between the regions writes argument 6. -/
theorem mid_arg6 (X : Valuation τ sig (Elt F)) :
    after hostOps1_2 (after hostOps1_1 (after hostOps1 X)) (Proc.devRef .tc main_arg6) = (X (Proc.devRef .tc main_arg6)) := by
  simp only [hostOps1_2, hostOps1_1, hostOps1]
  after_results_simp

set_option maxRecDepth 16384 in
set_option maxHeartbeats 2000000 in
/-- No operation between the regions writes argument 7. -/
theorem mid_arg7 (X : Valuation τ sig (Elt F)) :
    after hostOps1_2 (after hostOps1_1 (after hostOps1 X)) (Proc.devRef .tc main_arg7) = (X (Proc.devRef .tc main_arg7)) := by
  simp only [hostOps1_2, hostOps1_1, hostOps1]
  after_results_simp

set_option maxRecDepth 16384 in
set_option maxHeartbeats 2000000 in
/-- No operation between the regions writes argument 8. -/
theorem mid_arg8 (X : Valuation τ sig (Elt F)) :
    after hostOps1_2 (after hostOps1_1 (after hostOps1 X)) (Proc.devRef .tc main_arg8) = (X (Proc.devRef .tc main_arg8)) := by
  simp only [hostOps1_2, hostOps1_1, hostOps1]
  after_results_simp

set_option maxRecDepth 16384 in
set_option maxHeartbeats 2000000 in
/-- No operation between the regions writes argument 9. -/
theorem mid_arg9 (X : Valuation τ sig (Elt F)) :
    after hostOps1_2 (after hostOps1_1 (after hostOps1 X)) (Proc.devRef .tc main_arg9) = (X (Proc.devRef .tc main_arg9)) := by
  simp only [hostOps1_2, hostOps1_1, hostOps1]
  after_results_simp

/-! ## After the second region -/

set_option maxRecDepth 16384 in
set_option maxHeartbeats 8000000 in
/-- The result: the specification's tail of the two output arrays read flat and of the arguments. -/
theorem tail_fold (X : Valuation τ sig (Elt F)) :
    after hostOps2_3 (after hostOps2_2 (after hostOps2_1 (after hostOps2 X))) (Proc.devRef .tc main_v75)
      = Cert.Spec.tail (F := F)
          (shapeCast S1638400 (X (Proc.devRef .tc main_v20_0)) shapeCasts_S12800x128_S1638400)
          (shapeCast S1638400 (X (Proc.devRef .tc main_v20_1)) shapeCasts_S12800x128_S1638400)
          (X (Proc.devRef .tc main_arg0)) (X (Proc.devRef .tc main_arg1)) (X (Proc.devRef .tc main_arg3)) (X (Proc.devRef .tc main_arg4)) (X (Proc.devRef .tc main_arg5))
          (X (Proc.devRef .tc main_arg7)) (X (Proc.devRef .tc main_arg8)) (X (Proc.devRef .tc main_arg9)) := by
  simp only [hostOps2_3, hostOps2_2, hostOps2_1, hostOps2]
  after_results_simp
  rfl

end Cert.KernelIdeal.KerFolds

end
-- ==== Proof.RegionArrays.lean ====
/-
  What each kernel region leaves in its output arrays, as one function of the arrays the region finds.
  Every window of both regions moves down its array one block per grid point (block t of the array at point
  t, the single column block on the other axis), the blocks tile the arrays, and every point writes its block
  back; so an output array after the region is, block by block, what the body computed from the input blocks
  at the same rows. The first region's body sums the 64 columns of each of a block's 10000 rows from the zero
  word, so row i of its one-column output is the sum of row i of the table. The second region's body is an
  elementwise select on the equality of two integer blocks, so its outputs are that select of the whole arrays.
-/
import proofs.«121189_j57148834841202_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.RegionArrays

open Cert.KernelIdeal Cert.KernelIdeal.Gen Idealize.ShloMosaic Idealize.ShloMosaic.TcCoe Idealize.SL.Sem Idealize.ShloMosaic.ValueIdx
open Idealize.ShloMosaic.Pipeline (Dat)

/-- The zero offsets of a whole-buffer access, as a constant function. -/
theorem zero_offsets : (![0, 0] : Fin 2 → Nat) = fun _ => 0 := funext fun a => by fin_cases a <;> rfl

/-! ## Region 1: the two masked outputs -/

/-- At grid point `t` every window of region 1 sits at block `(t, 0)` of its array. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- A row index of a [12800,128] array lies in the block of the point `row / 1600`: the quotient is a grid point, and the
    block's row range `[1600·q, 1600·q + 1600)` holds the row. -/
theorem row_block1 (r : Nat) (hr : r < 12800) : r / 1600 < 8 ∧ r / 1600 * 1600 ≤ r ∧ r < r / 1600 * 1600 + 1600 := by omega

section AnyF
variable {F : FTy → Type} [FloatOps F]
variable (V : (c : Dev nD) → (b : Ref sig .tc) → Buf (Elt F) ((c : Thread nD τ).loc b))

/-- The zero word where the two integer arrays agree, the float array elsewhere. -/
abbrev maskedValues (a0 : S12800x128.Idx → Elt F .i32) (a1 : S12800x128.Idx → Elt F .f32) (a2 : S12800x128.Idx → Elt F .i32) :
    S12800x128.Idx → Elt F .f32 :=
  select (cmpi .eq a0 a2) (broadcast S12800x128 (Scalar.ofBits .f32 0x00000000#32)) a1

/-- The zero word where the two integer arrays agree, the word of 1.0 elsewhere. -/
abbrev maskedOnes (a0 : S12800x128.Idx → Elt F .i32) (a2 : S12800x128.Idx → Elt F .i32) :
    S12800x128.Idx → Elt F .f32 :=
  select (cmpi .eq a0 a2) (broadcast S12800x128 (Scalar.ofBits .f32 0x00000000#32)) (broadcast S12800x128 (Scalar.ofBits .f32 0x3F800000#32))

/-- An element of an input block and the element of the output block at the same place inside the block sit at the same
    place of their arrays: on each axis, block index × block size + the coordinate inside the block, and the block
    indices agree. -/
theorem emb_eq1 (t : Fin cfg1.N) (j : S1600x128.Idx) :
    ((cfg1.win 0).blk t).view.emb j = ((cfg1.win 3).blk t).view.emb j
    ∧ ((cfg1.win 1).blk t).view.emb j = ((cfg1.win 3).blk t).view.emb j
    ∧ ((cfg1.win 2).blk t).view.emb j = ((cfg1.win 3).blk t).view.emb j
    ∧ ((cfg1.win 0).blk t).view.emb j = ((cfg1.win 4).blk t).view.emb j
    ∧ ((cfg1.win 2).blk t).view.emb j = ((cfg1.win 4).blk t).view.emb j := by
  obtain ⟨e00, e01, e10, e11, e20, e21, e30, e31, e40, e41⟩ := block_index1 t
  refine ⟨?_, ?_, ?_, ?_, ?_⟩ <;> (funext a; apply Fin.ext)
  · match a with
    | ⟨0, _⟩ => show win1_0.index t (0 : Fin 2) * 1600 + 1 * (j 0).val = win1_3.index t (0 : Fin 2) * 1600 + 1 * (j 0).val; omega
    | ⟨1, _⟩ => show win1_0.index t (1 : Fin 2) * 128 + 1 * (j 1).val = win1_3.index t (1 : Fin 2) * 128 + 1 * (j 1).val; omega
  · match a with
    | ⟨0, _⟩ => show win1_1.index t (0 : Fin 2) * 1600 + 1 * (j 0).val = win1_3.index t (0 : Fin 2) * 1600 + 1 * (j 0).val; omega
    | ⟨1, _⟩ => show win1_1.index t (1 : Fin 2) * 128 + 1 * (j 1).val = win1_3.index t (1 : Fin 2) * 128 + 1 * (j 1).val; omega
  · match a with
    | ⟨0, _⟩ => show win1_2.index t (0 : Fin 2) * 1600 + 1 * (j 0).val = win1_3.index t (0 : Fin 2) * 1600 + 1 * (j 0).val; omega
    | ⟨1, _⟩ => show win1_2.index t (1 : Fin 2) * 128 + 1 * (j 1).val = win1_3.index t (1 : Fin 2) * 128 + 1 * (j 1).val; omega
  · match a with
    | ⟨0, _⟩ => show win1_0.index t (0 : Fin 2) * 1600 + 1 * (j 0).val = win1_4.index t (0 : Fin 2) * 1600 + 1 * (j 0).val; omega
    | ⟨1, _⟩ => show win1_0.index t (1 : Fin 2) * 128 + 1 * (j 1).val = win1_4.index t (1 : Fin 2) * 128 + 1 * (j 1).val; omega
  · match a with
    | ⟨0, _⟩ => show win1_2.index t (0 : Fin 2) * 1600 + 1 * (j 0).val = win1_4.index t (0 : Fin 2) * 1600 + 1 * (j 0).val; omega
    | ⟨1, _⟩ => show win1_2.index t (1 : Fin 2) * 128 + 1 * (j 1).val = win1_4.index t (1 : Fin 2) * 128 + 1 * (j 1).val; omega

/-- What point `t` writes back to the first output is block `t` of `maskedValues` of the three input arrays. -/
theorem contrib_flushed (c : Dev nD) (t : Fin cfg1.N) :
    (dat1 V c).flushed 3 t
      = ((cfg1.win 3).blk t).view.read (Elt F) (maskedValues (V c main_v17) (V c main_v18) (V c main_v19)) := by
  show (cfg1.win 3).cut (grid1.coords t) ((dat1 V c).after 3 t) = _
  rw [after1_3]
  unfold out1_3
  rw [View.canon_unit_zero zero_offsets]
  simp only [View.ld_unit_zero (S := S1600x128) zero_offsets]
  unfold k1_pay2 k1_pay1
  simp only [shapeCast_self]
  funext j
  show Scalar.select (IntOp.cmpi .eq (V c main_v17 (((cfg1.win 0).blk t).view.emb j)) (V c main_v19 (((cfg1.win 2).blk t).view.emb j)))
        (Scalar.ofBits .f32 0x00000000#32) (V c main_v18 (((cfg1.win 1).blk t).view.emb j))
      = Scalar.select (IntOp.cmpi .eq (V c main_v17 (((cfg1.win 3).blk t).view.emb j)) (V c main_v19 (((cfg1.win 3).blk t).view.emb j)))
        (Scalar.ofBits .f32 0x00000000#32) (V c main_v18 (((cfg1.win 3).blk t).view.emb j))
  obtain ⟨h0, h1, h2, -, -⟩ := emb_eq1 t j
  rw [h0, h1, h2]

/-- What point `t` writes back to the second output is block `t` of `maskedOnes` of the two integer input arrays. -/
theorem count_flushed (c : Dev nD) (t : Fin cfg1.N) :
    (dat1 V c).flushed 4 t
      = ((cfg1.win 4).blk t).view.read (Elt F) (maskedOnes (V c main_v17) (V c main_v19)) := by
  show (cfg1.win 4).cut (grid1.coords t) ((dat1 V c).after 4 t) = _
  rw [after1_4]
  unfold out1_4
  rw [View.canon_unit_zero zero_offsets]
  simp only [View.ld_unit_zero (S := S1600x128) zero_offsets]
  unfold k1_pay3 k1_pay1
  simp only [shapeCast_self]
  funext j
  show Scalar.select (IntOp.cmpi .eq (V c main_v17 (((cfg1.win 0).blk t).view.emb j)) (V c main_v19 (((cfg1.win 2).blk t).view.emb j)))
        (Scalar.ofBits .f32 0x00000000#32) (Scalar.ofBits .f32 0x3F800000#32)
      = Scalar.select (IntOp.cmpi .eq (V c main_v17 (((cfg1.win 4).blk t).view.emb j)) (V c main_v19 (((cfg1.win 4).blk t).view.emb j)))
        (Scalar.ofBits .f32 0x00000000#32) (Scalar.ofBits .f32 0x3F800000#32)
  obtain ⟨-, -, -, h0, h2⟩ := emb_eq1 t j
  rw [h0, h2]

/-- An index of the first output array is in point `t`'s block iff each coordinate is in the block's range on its axis. -/
theorem mem_block1_3 (t : Fin cfg1.N) (i : S12800x128.Idx) :
    i ∈ ((cfg1.win 3).blk t).view.set ↔ ∀ a : Fin 2, win1_3.index t a * S1600x128.size a ≤ (i a).val ∧ (i a).val < win1_3.index t a * S1600x128.size a + S1600x128.size a := by
  show i ∈ ((View.whole main_v20_0).slice (win1_3.rect t)).set ↔ _
  rw [View.set_slice_whole, Rect.mem_set_unit]
  exact Iff.rfl

/-- The same for the second output array. -/
theorem mem_block1_4 (t : Fin cfg1.N) (i : S12800x128.Idx) :
    i ∈ ((cfg1.win 4).blk t).view.set ↔ ∀ a : Fin 2, win1_4.index t a * S1600x128.size a ≤ (i a).val ∧ (i a).val < win1_4.index t a * S1600x128.size a + S1600x128.size a := by
  show i ∈ ((View.whole main_v20_1).slice (win1_4.rect t)).set ↔ _
  rw [View.set_slice_whole, Rect.mem_set_unit]
  exact Iff.rfl

/-- The blocks of the first output tile its array: row `r` is in the block of point `r / 1600`. -/
theorem covered1_3 (i : S12800x128.Idx) :
    ∃ t : Fin cfg1.N, (cfg1.win 3).flush t = true ∧ i ∈ ((cfg1.win 3).blk t).view.set := by
  have hi0 : (i 0).val < 12800 := (i 0).isLt
  have hi1 : (i 1).val < 128 := (i 1).isLt
  obtain ⟨q8, qlo, qhi⟩ := row_block1 (i 0).val hi0
  have hN : cfg1.N = 8 := N_1
  have ht : (i 0).val / 1600 < cfg1.N := by rw [hN]; exact q8
  obtain ⟨-, -, -, -, -, -, e30, e31, -, -⟩ := block_index1 ⟨(i 0).val / 1600, ht⟩
  refine ⟨⟨(i 0).val / 1600, ht⟩, flush1_3 _, ?_⟩
  rw [mem_block1_3]
  intro a
  match a with
  | ⟨0, _⟩ =>
    show win1_3.index ⟨(i 0).val / 1600, ht⟩ (0 : Fin 2) * 1600 ≤ (i 0).val ∧ (i 0).val < win1_3.index ⟨(i 0).val / 1600, ht⟩ (0 : Fin 2) * 1600 + 1600
    rw [e30]; exact ⟨qlo, qhi⟩
  | ⟨1, _⟩ =>
    show win1_3.index ⟨(i 0).val / 1600, ht⟩ (1 : Fin 2) * 128 ≤ (i 1).val ∧ (i 1).val < win1_3.index ⟨(i 0).val / 1600, ht⟩ (1 : Fin 2) * 128 + 128
    rw [e31]; omega

/-- The same for the second output. -/
theorem covered1_4 (i : S12800x128.Idx) :
    ∃ t : Fin cfg1.N, (cfg1.win 4).flush t = true ∧ i ∈ ((cfg1.win 4).blk t).view.set := by
  have hi0 : (i 0).val < 12800 := (i 0).isLt
  have hi1 : (i 1).val < 128 := (i 1).isLt
  obtain ⟨q8, qlo, qhi⟩ := row_block1 (i 0).val hi0
  have hN : cfg1.N = 8 := N_1
  have ht : (i 0).val / 1600 < cfg1.N := by rw [hN]; exact q8
  obtain ⟨-, -, -, -, -, -, -, -, e40, e41⟩ := block_index1 ⟨(i 0).val / 1600, ht⟩
  refine ⟨⟨(i 0).val / 1600, ht⟩, flush1_4 _, ?_⟩
  rw [mem_block1_4]
  intro a
  match a with
  | ⟨0, _⟩ =>
    show win1_4.index ⟨(i 0).val / 1600, ht⟩ (0 : Fin 2) * 1600 ≤ (i 0).val ∧ (i 0).val < win1_4.index ⟨(i 0).val / 1600, ht⟩ (0 : Fin 2) * 1600 + 1600
    rw [e40]; exact ⟨qlo, qhi⟩
  | ⟨1, _⟩ =>
    show win1_4.index ⟨(i 0).val / 1600, ht⟩ (1 : Fin 2) * 128 ≤ (i 1).val ∧ (i 1).val < win1_4.index ⟨(i 0).val / 1600, ht⟩ (1 : Fin 2) * 128 + 128
    rw [e41]; omega

/-- After region 1, the first output array is, element by element, the zero word where the two integer inputs agree
    and the float input elsewhere. -/
theorem contrib_arr (c : Dev nD) :
    (dat1 V c).arrAt 3 cfg1.N
      = (select (cmpi .eq (V c main_v17) (V c main_v19)) (broadcast S12800x128 (Scalar.ofBits .f32 0x00000000#32)) (V c main_v18) : FVec F S12800x128 .f32) :=
  (dat1 V c).arrAt_eq_of_cover 3 (maskedValues (V c main_v17) (V c main_v18) (V c main_v19))
    (fun t _ => contrib_flushed V c t) covered1_3

/-- After region 1, the second output array is the zero word where they agree and the word of 1.0 elsewhere. -/
theorem count_arr (c : Dev nD) :
    (dat1 V c).arrAt 4 cfg1.N
      = (select (cmpi .eq (V c main_v17) (V c main_v19)) (broadcast S12800x128 (Scalar.ofBits .f32 0x00000000#32)) (broadcast S12800x128 (Scalar.ofBits .f32 0x3F800000#32)) : FVec F S12800x128 .f32) :=
  (dat1 V c).arrAt_eq_of_cover 4 (maskedOnes (V c main_v17) (V c main_v19))
    (fun t _ => count_flushed V c t) covered1_4

end AnyF

/-! ## Region 0: the row sums -/

/-- At grid point `t` both windows of region 0 sit at block `(t, 0)` of their arrays. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A row index of a [100000,·] array lies in the block of the point `row / 10000`. -/
theorem row_block0 (r : Nat) (hr : r < 100000) : r / 10000 < 10 ∧ r / 10000 * 10000 ≤ r ∧ r < r / 10000 * 10000 + 10000 := by omega

section AtIdeal
variable (V : (c : Dev nD) → (b : Ref sig .tc) → Buf (Elt Ideal) ((c : Thread nD τ).loc b))

/-- The row of an index of a one-column block, as a number below the block's row count. -/
abbrev blockRow (j : S10000x1.Idx) : Fin 10000 := ⟨(j 0).val, idx2_lt0 j⟩

/-- The row of an index of the one-column array, as a number below the array's row count. -/
abbrev arrayRow (k : S100000x1.Idx) : Fin 100000 := ⟨(k 0).val, idx2_lt0 k⟩

/-- The one-column array of the row sums of a [100000,64] array, in the extended reals. -/
abbrev rowSums (A : S100000x64.Idx → EReal) : S100000x1.Idx → EReal :=
  fun k => ∑ d : Fin 64, A (ix2 (arrayRow k) d)

/-- The body's payload on a block, at an index: the lane sum from the zero word over the 64 columns, recast as one
    column, is the plain sum of the block's row. -/
theorem rowsum_payload (x0 : FVec Ideal S10000x64 .f32) (j : S10000x1.Idx) :
    k0_pay1 (F := Ideal) x0 j = ∑ d : Fin 64, x0 (ix2 (blockRow j) d) := by
  unfold k0_pay1
  refine (shapeCast_apply _ shapeCasts_S10000_S10000x1 j (ix1 (blockRow j)) ?_).trans ?_
  · rw [Shape.rowMajor_val_one, Shape.rowMajor_val_two]
    have h1 : (j 1).val < 1 := idx2_lt1 j
    show (j 0).val = (j 0).val * 1 + (j 1).val
    omega
  · refine (Ideal.multiReduction_add_single x0 0x00000000#32 reduces_S10000x64_S10000 (.inl rfl) rfl (ix1 (blockRow j))).trans ?_
    exact Finset.sum_congr rfl fun d _ => congrArg x0 (funext fun a => by
      match a with
      | ⟨0, _⟩ => rfl
      | ⟨1, _⟩ => rfl)

/-- What point `t` writes back is block `t` of the row sums of the input array. -/
theorem rowsum_flushed (c : Dev nD) (t : Fin cfg0.N) :
    (dat0 (F := Ideal) V c).flushed 1 t
      = ((cfg0.win 1).blk t).view.read (Elt Ideal) (rowSums (V c main_arg6)) := by
  show (cfg0.win 1).cut (grid0.coords t) ((dat0 (F := Ideal) V c).after 1 t) = _
  rw [after0_1]
  unfold out0_1
  rw [View.canon_unit_zero zero_offsets]
  simp only [View.ld_unit_zero (S := S10000x64) zero_offsets]
  obtain ⟨e00, e01, e10, e11⟩ := block_index0 t
  funext j
  show k0_pay1 (F := Ideal) (iblk0 V c 0 t) j = rowSums (V c main_arg6) (((cfg0.win 1).blk t).view.emb j)
  refine (rowsum_payload (iblk0 V c 0 t) j).trans ?_
  refine Finset.sum_congr rfl fun d _ => ?_
  show V c main_arg6 (((cfg0.win 0).blk t).view.emb (ix2 (blockRow j) d)) = V c main_arg6 (ix2 (arrayRow (((cfg0.win 1).blk t).view.emb j)) d)
  refine congrArg (V c main_arg6) (funext fun a => Fin.ext ?_)
  match a with
  | ⟨0, _⟩ => show win0_0.index t (0 : Fin 2) * 10000 + 1 * (j 0).val = win0_1.index t (0 : Fin 2) * 10000 + 1 * (j 0).val; omega
  | ⟨1, _⟩ => show win0_0.index t (1 : Fin 2) * 64 + 1 * d.val = d.val; omega

/-- An index of the output array is in point `t`'s block iff each coordinate is in the block's range on its axis. -/
theorem mem_block0_1 (t : Fin cfg0.N) (i : S100000x1.Idx) :
    i ∈ ((cfg0.win 1).blk t).view.set ↔ ∀ a : Fin 2, win0_1.index t a * S10000x1.size a ≤ (i a).val ∧ (i a).val < win0_1.index t a * S10000x1.size a + S10000x1.size a := by
  show i ∈ ((View.whole main_v0).slice (win0_1.rect t)).set ↔ _
  rw [View.set_slice_whole, Rect.mem_set_unit]
  exact Iff.rfl

/-- The output's blocks tile its array: row `r` is in the block of point `r / 10000`. -/
theorem covered0_1 (i : S100000x1.Idx) :
    ∃ t : Fin cfg0.N, (cfg0.win 1).flush t = true ∧ i ∈ ((cfg0.win 1).blk t).view.set := by
  have hi0 : (i 0).val < 100000 := (i 0).isLt
  have hi1 : (i 1).val < 1 := (i 1).isLt
  obtain ⟨q10, qlo, qhi⟩ := row_block0 (i 0).val hi0
  have hN : cfg0.N = 10 := N_0
  have ht : (i 0).val / 10000 < cfg0.N := by rw [hN]; exact q10
  obtain ⟨-, -, e10, e11⟩ := block_index0 ⟨(i 0).val / 10000, ht⟩
  refine ⟨⟨(i 0).val / 10000, ht⟩, flush0_1 _, ?_⟩
  rw [mem_block0_1]
  intro a
  match a with
  | ⟨0, _⟩ =>
    show win0_1.index ⟨(i 0).val / 10000, ht⟩ (0 : Fin 2) * 10000 ≤ (i 0).val ∧ (i 0).val < win0_1.index ⟨(i 0).val / 10000, ht⟩ (0 : Fin 2) * 10000 + 10000
    rw [e10]; exact ⟨qlo, qhi⟩
  | ⟨1, _⟩ =>
    show win0_1.index ⟨(i 0).val / 10000, ht⟩ (1 : Fin 2) * 1 ≤ (i 1).val ∧ (i 1).val < win0_1.index ⟨(i 0).val / 10000, ht⟩ (1 : Fin 2) * 1 + 1
    rw [e11]; omega

/-- After region 0, row `i` of the [100000,1] output array is the sum of row `i` of the [100000,64] input array
    (extended reals). -/
theorem rowsum_arr (c : Dev nD) (i : Fin 100000) :
    (dat0 (F := Ideal) V c).arrAt 1 cfg0.N (ix2 i (0 : Fin 1)) = (∑ d : Fin 64, V c main_arg6 (ix2 i d) : EReal) :=
  congrFun ((dat0 (F := Ideal) V c).arrAt_eq_of_cover 1 (rowSums (V c main_arg6))
    (fun t _ => rowsum_flushed V c t) covered0_1) (ix2 i (0 : Fin 1))

end AtIdeal

end Cert.KernelIdeal.RegionArrays

end
-- ==== Proof.Bridge.lean ====
/-
  The one law that joins the two programs: summing the 64 columns of a gathered row of the bucket table is
  gathering from the table of row sums. The kernel's side reads a [100000,1] array of row sums flat and
  gathers one entry per rating; the reference gathers the whole row and sums it from the zero word. Both
  gathers read the rating's item signed and clamped into the table's rows, so both are the row sum of that
  row. Around it, laying an array of 1638400 entries out as [12800,128], applying an elementwise select
  and laying the result out flat again is the same select applied flat.
-/
import proofs.«121189_j57148834841202_1_alg».proof.Proof.Spec
import proofs.«121189_j57148834841202_1_alg».proof.Proof.LibScatterGather
import Idealize.ShloMosaic.Lib.IdealHost
import Idealize.ShloMosaic.Lib.Pipeline.Value

noncomputable section

namespace Cert.Spec

open Cert.ReferenceIdeal Cert.ReferenceIdeal.Gen Idealize.ShloMosaic Idealize.ShloMosaic.ValueIdx Cert.ScatterGather

/-- The ratings laid out as 12800 rows of 128 lanes. -/
abbrev Slanes : Shape := ⟨2, ![12800, 128]⟩
/-- The table of row sums as the first kernel writes it: one column. -/
abbrev Scol : Shape := ⟨2, ![100000, 1]⟩

/-- The source index over rating `e` with column `k` is (e, k). -/
theorem lift_rating (h : S1638400x64.Reduces [1] S1638400) (e : Fin 1638400) (k : Fin 64) :
    h.lift (ix1 e) k = ix2 e k := by
  funext c
  match c with
  | ⟨0, _⟩ => exact Fin.ext rfl
  | ⟨1, _⟩ => exact Fin.ext rfl

/-- GATHERING FROM THE ROW SUMS IS SUMMING THE GATHERED ROWS: for a one-column array `row` holding each table
    row's sum, the flat gather of `row` at the ratings' items is the reference's sum of the gathered rows. -/
theorem gather_rowsum (a2 : IVec S1638400 32) (a6 : FVec Ideal S100000x64 .f32) (row : FVec Ideal Scol .f32)
    (hrow : ∀ i : Fin 100000, row (ix2 i (0 : Fin 1)) = ∑ d : Fin 64, (a6 (ix2 i d) : EReal))
    (hc : Scol.ShapeCasts S100000) (wf : GatherDims.WF S100000 S1638400x1 S1638400 [] [0] [] [0] [] 1 ![1]) :
    Host.gather (flatDims 100000 1638400 wf) (shapeCast S100000 row hc) (rowIdx a2) = rowsumRef (F := Ideal) a2 a6 := by
  funext t
  obtain ⟨e, rfl⟩ : ∃ e : Fin 1638400, t = ix1 e := ⟨t 0, eq_ix1 t⟩
  have hred : S1638400x64.Reduces [1] S1638400 := by decide
  have hflat : ∀ r : Fin 100000, shapeCast S100000 row hc (ix1 r) = row (ix2 r (0 : Fin 1)) := fun r =>
    shapeCast_apply row hc (ix1 r) (ix2 r (0 : Fin 1))
      (by rw [Shape.rowMajor_val_two, Shape.rowMajor_val_one]; show r.val * 1 + 0 = r.val; omega)
  rw [gather_flat_apply (by norm_num : 0 < 100000), hflat, hrow]
  unfold rowsumRef
  rw [hostReduceAdd_apply, Ideal.hostReduceAdd_single _ hred]
  have h0 : (constant (F := Ideal) S_ .f32 0x00000000#32) (Shape.Idx.first h_S_) = 0 := Ideal.ofBits_zero_f32
  rw [h0, zero_add]
  refine Finset.sum_congr rfl fun k _ => ?_
  rw [lift_rating hred e k]
  exact (gather_rows_apply (by norm_num : 0 < 100000) gather_S100000x64_S1638400x1_S1638400x64_1_0_n_n_0_1_164_wf a6 (rowIdx a2) (ix2 e k)).symm

/-- LAYING OUT, SELECTING, LAYING FLAT AGAIN: an elementwise select on equal words, applied to arrays laid out as
    lanes and read flat again, is the same select applied to the flat arrays. -/
theorem lanes_select_flat {α : Type} (x y : IVec S1638400 32) (u v : S1638400.Idx → α)
    (h1 : S1638400.ShapeCasts Slanes) (h3 : Slanes.ShapeCasts S1638400) :
    shapeCast S1638400 (select (cmpi .eq (shapeCast Slanes x h1) (shapeCast Slanes y h1))
      (shapeCast Slanes u h1) (shapeCast Slanes v h1)) h3 = select (cmpi .eq x y) u v := by
  have e : shapeCast S1638400 (select (cmpi .eq (shapeCast Slanes x h1) (shapeCast Slanes y h1))
        (shapeCast Slanes u h1) (shapeCast Slanes v h1)) h3
      = select (cmpi .eq (shapeCast S1638400 (shapeCast Slanes x h1) h3) (shapeCast S1638400 (shapeCast Slanes y h1) h3))
        (shapeCast S1638400 (shapeCast Slanes u h1) h3) (shapeCast S1638400 (shapeCast Slanes v h1) h3) := rfl
  rw [e, shapeCast_shapeCast, shapeCast_shapeCast, shapeCast_shapeCast, shapeCast_shapeCast]

/-- THE CONTRIBUTIONS: what the second kernel writes, read flat, is the reference's contribution array. -/
theorem contrib_flat (a1 : IVec S16384 32) (a2 a3 : IVec S1638400 32) (a6 : FVec Ideal S100000x64 .f32)
    (row : FVec Ideal Scol .f32) (hrow : ∀ i : Fin 100000, row (ix2 i (0 : Fin 1)) = ∑ d : Fin 64, (a6 (ix2 i d) : EReal))
    (hc : Scol.ShapeCasts S100000) (wf : GatherDims.WF S100000 S1638400x1 S1638400 [] [0] [] [0] [] 1 ![1])
    (h1 : S1638400.ShapeCasts Slanes) (h3 : Slanes.ShapeCasts S1638400) :
    shapeCast S1638400 (select (cmpi .eq (shapeCast Slanes a2 h1) (shapeCast Slanes (tgt a1 a3) h1))
        (broadcast Slanes (Scalar.ofBits (F := Ideal) .f32 0x00000000#32))
        (shapeCast Slanes (Host.gather (flatDims 100000 1638400 wf) (shapeCast S100000 row hc) (rowIdx a2)) h1)) h3
      = contribRef (F := Ideal) a1 a2 a3 a6 := by
  rw [gather_rowsum a2 a6 row hrow hc wf]
  exact lanes_select_flat a2 (tgt a1 a3) (broadcast S1638400 (Scalar.ofBits (F := Ideal) .f32 0x00000000#32)) (rowsumRef a2 a6) h1 h3

/-- THE COUNTS: likewise. -/
theorem cnt_flat (a1 : IVec S16384 32) (a2 a3 : IVec S1638400 32)
    (h1 : S1638400.ShapeCasts Slanes) (h3 : Slanes.ShapeCasts S1638400) :
    shapeCast S1638400 (select (cmpi .eq (shapeCast Slanes a2 h1) (shapeCast Slanes (tgt a1 a3) h1))
        (broadcast Slanes (Scalar.ofBits (F := Ideal) .f32 0x00000000#32))
        (broadcast Slanes (Scalar.ofBits (F := Ideal) .f32 0x3F800000#32))) h3
      = cntRef (F := Ideal) a1 a2 a3 :=
  lanes_select_flat a2 (tgt a1 a3) (broadcast S1638400 (Scalar.ofBits (F := Ideal) .f32 0x00000000#32))
    (broadcast S1638400 (Scalar.ofBits (F := Ideal) .f32 0x3F800000#32)) h1 h3

end Cert.Spec

end
-- ==== Proof.KerValue.lean ====
/-
  The idealized kernel program's result buffer as the specification's function of the launch contents of
  the argument buffers: the last boundary's contents are read back stretch by stretch — the tail of host
  operations over the second region's two output arrays, those arrays as the elementwise select of the
  region's three input arrays, the inputs as the host operations before the region leave them (the items,
  the first region's row sums gathered at the items, the target items), and the first region's output as
  the row sums of the bucket table — and then the one law: gathering row sums is summing gathered rows.
-/
import proofs.«121189_j57148834841202_1_alg».proof.Proof.KerRun
import proofs.«121189_j57148834841202_1_alg».proof.Proof.KerFolds
import proofs.«121189_j57148834841202_1_alg».proof.Proof.RegionArrays
import proofs.«121189_j57148834841202_1_alg».proof.Proof.Bridge

noncomputable section

namespace Cert.KernelIdeal.KerValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The arguments at the boundaries -/

/-- Argument 0 leaves the first region as launched (the region stages only the bucket table and its own output). -/
theorem W1_arg0 (c : Dev nD) : W1 m ρ c (Proc.devRef .tc main_arg0) = (m ((c : Thread nD τ).loc main_arg0)) :=
  (W1_of_ne m ρ c main_arg0 (by decide)).trans rfl

/-- Argument 1 leaves the first region as launched (the region stages only the bucket table and its own output). -/
theorem W1_arg1 (c : Dev nD) : W1 m ρ c (Proc.devRef .tc main_arg1) = (m ((c : Thread nD τ).loc main_arg1)) :=
  (W1_of_ne m ρ c main_arg1 (by decide)).trans rfl

/-- Argument 2 leaves the first region as launched (the region stages only the bucket table and its own output). -/
theorem W1_arg2 (c : Dev nD) : W1 m ρ c (Proc.devRef .tc main_arg2) = (m ((c : Thread nD τ).loc main_arg2)) :=
  (W1_of_ne m ρ c main_arg2 (by decide)).trans rfl

/-- Argument 3 leaves the first region as launched (the region stages only the bucket table and its own output). -/
theorem W1_arg3 (c : Dev nD) : W1 m ρ c (Proc.devRef .tc main_arg3) = (m ((c : Thread nD τ).loc main_arg3)) :=
  (W1_of_ne m ρ c main_arg3 (by decide)).trans rfl

/-- Argument 4 leaves the first region as launched (the region stages only the bucket table and its own output). -/
theorem W1_arg4 (c : Dev nD) : W1 m ρ c (Proc.devRef .tc main_arg4) = (m ((c : Thread nD τ).loc main_arg4)) :=
  (W1_of_ne m ρ c main_arg4 (by decide)).trans rfl

/-- Argument 5 leaves the first region as launched (the region stages only the bucket table and its own output). -/
theorem W1_arg5 (c : Dev nD) : W1 m ρ c (Proc.devRef .tc main_arg5) = (m ((c : Thread nD τ).loc main_arg5)) :=
  (W1_of_ne m ρ c main_arg5 (by decide)).trans rfl

/-- Argument 7 leaves the first region as launched (the region stages only the bucket table and its own output). -/
theorem W1_arg7 (c : Dev nD) : W1 m ρ c (Proc.devRef .tc main_arg7) = (m ((c : Thread nD τ).loc main_arg7)) :=
  (W1_of_ne m ρ c main_arg7 (by decide)).trans rfl

/-- Argument 8 leaves the first region as launched (the region stages only the bucket table and its own output). -/
theorem W1_arg8 (c : Dev nD) : W1 m ρ c (Proc.devRef .tc main_arg8) = (m ((c : Thread nD τ).loc main_arg8)) :=
  (W1_of_ne m ρ c main_arg8 (by decide)).trans rfl

/-- Argument 9 leaves the first region as launched (the region stages only the bucket table and its own output). -/
theorem W1_arg9 (c : Dev nD) : W1 m ρ c (Proc.devRef .tc main_arg9) = (m ((c : Thread nD τ).loc main_arg9)) :=
  (W1_of_ne m ρ c main_arg9 (by decide)).trans rfl

/-- Argument 0 leaves the second region as launched. -/
theorem W5_arg0 (c : Dev nD) : W5 m ρ c (Proc.devRef .tc main_arg0) = (m ((c : Thread nD τ).loc main_arg0)) :=
  (W5_of_ne m ρ c main_arg0 (by decide)).trans ((KerFolds.mid_arg0 (W1 m ρ c)).trans (W1_arg0 m ρ c))

/-- Argument 1 leaves the second region as launched. -/
theorem W5_arg1 (c : Dev nD) : W5 m ρ c (Proc.devRef .tc main_arg1) = (m ((c : Thread nD τ).loc main_arg1)) :=
  (W5_of_ne m ρ c main_arg1 (by decide)).trans ((KerFolds.mid_arg1 (W1 m ρ c)).trans (W1_arg1 m ρ c))

/-- Argument 3 leaves the second region as launched. -/
theorem W5_arg3 (c : Dev nD) : W5 m ρ c (Proc.devRef .tc main_arg3) = (m ((c : Thread nD τ).loc main_arg3)) :=
  (W5_of_ne m ρ c main_arg3 (by decide)).trans ((KerFolds.mid_arg3 (W1 m ρ c)).trans (W1_arg3 m ρ c))

/-- Argument 4 leaves the second region as launched. -/
theorem W5_arg4 (c : Dev nD) : W5 m ρ c (Proc.devRef .tc main_arg4) = (m ((c : Thread nD τ).loc main_arg4)) :=
  (W5_of_ne m ρ c main_arg4 (by decide)).trans ((KerFolds.mid_arg4 (W1 m ρ c)).trans (W1_arg4 m ρ c))

/-- Argument 5 leaves the second region as launched. -/
theorem W5_arg5 (c : Dev nD) : W5 m ρ c (Proc.devRef .tc main_arg5) = (m ((c : Thread nD τ).loc main_arg5)) :=
  (W5_of_ne m ρ c main_arg5 (by decide)).trans ((KerFolds.mid_arg5 (W1 m ρ c)).trans (W1_arg5 m ρ c))

/-- Argument 7 leaves the second region as launched. -/
theorem W5_arg7 (c : Dev nD) : W5 m ρ c (Proc.devRef .tc main_arg7) = (m ((c : Thread nD τ).loc main_arg7)) :=
  (W5_of_ne m ρ c main_arg7 (by decide)).trans ((KerFolds.mid_arg7 (W1 m ρ c)).trans (W1_arg7 m ρ c))

/-- Argument 8 leaves the second region as launched. -/
theorem W5_arg8 (c : Dev nD) : W5 m ρ c (Proc.devRef .tc main_arg8) = (m ((c : Thread nD τ).loc main_arg8)) :=
  (W5_of_ne m ρ c main_arg8 (by decide)).trans ((KerFolds.mid_arg8 (W1 m ρ c)).trans (W1_arg8 m ρ c))

/-- Argument 9 leaves the second region as launched. -/
theorem W5_arg9 (c : Dev nD) : W5 m ρ c (Proc.devRef .tc main_arg9) = (m ((c : Thread nD τ).loc main_arg9)) :=
  (W5_of_ne m ρ c main_arg9 (by decide)).trans ((KerFolds.mid_arg9 (W1 m ρ c)).trans (W1_arg9 m ρ c))

/-! ## The second region's input arrays -/

/-- The items, laid out as lanes. -/
theorem V4_v17 (c : Dev nD) :
    V4 m ρ c main_v17 = shapeCast S12800x128 (m ((c : Thread nD τ).loc main_arg2)) shapeCasts_S1638400_S12800x128 :=
  (KerFolds.mid_v17 (W1 m ρ c)).trans (by rw [W1_arg2])

/-- The first region's output read flat, gathered at the items' rows, laid out as lanes. -/
theorem V4_v18 (c : Dev nD) :
    V4 m ρ c main_v18 = shapeCast S12800x128 (Host.gather (Cert.ScatterGather.flatDims 100000 1638400 gather_S100000_S1638400x1_S1638400_n_0_n_n_0_1_1_wf)
        (shapeCast S100000 ((dat0 (V0 m ρ) c).arrAt 1 cfg0.N) shapeCasts_S100000x1_S100000) (Cert.Spec.rowIdx (m ((c : Thread nD τ).loc main_arg2))))
        shapeCasts_S1638400_S12800x128 :=
  (KerFolds.mid_v18 (W1 m ρ c)).trans (by rw [W1_arg2, show W1 m ρ c (Proc.devRef .tc main_v0) = (dat0 (V0 m ρ) c).arrAt 1 cfg0.N from W1_arr m ρ c 1])

/-- The target items, laid out as lanes. -/
theorem V4_v19 (c : Dev nD) :
    V4 m ρ c main_v19 = shapeCast S12800x128 (Cert.Spec.tgt (m ((c : Thread nD τ).loc main_arg1)) (m ((c : Thread nD τ).loc main_arg3))) shapeCasts_S1638400_S12800x128 :=
  (KerFolds.mid_v19 (W1 m ρ c)).trans (by rw [W1_arg1, W1_arg3])

/-! ## The result -/

/-- Row i of the first region's output is the sum of row i of the bucket table as launched. -/
theorem rowsums (c : Dev nD) (i : Fin 100000) :
    (dat0 (V0 m ρ) c).arrAt 1 cfg0.N (ix2 i (0 : Fin 1)) = (∑ d : Fin 64, ((m ((c : Thread nD τ).loc main_arg6)) : S100000x64.Idx → EReal) (ix2 i d) : EReal) :=
  RegionArrays.rowsum_arr (V0 m ρ) c i

/-- THE RESULT: the last boundary's contents at the result buffer are the specification of the arguments as launched. -/
theorem result_eq (c : Dev nD) :
    W9 m ρ c (Proc.devRef .tc main_v75)
      = Cert.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (KerFolds.tail_fold (W5 m ρ c)).trans ?_
  have h3 : W5 m ρ c (Proc.devRef .tc main_v20_0) = (dat1 (V4 m ρ) c).arrAt 3 cfg1.N := W5_arr m ρ c 3
  have h4 : W5 m ρ c (Proc.devRef .tc main_v20_1) = (dat1 (V4 m ρ) c).arrAt 4 cfg1.N := W5_arr m ρ c 4
  rw [h3, h4, RegionArrays.contrib_arr (V4 m ρ) c, RegionArrays.count_arr (V4 m ρ) c,
    V4_v17 m ρ c, V4_v18 m ρ c, V4_v19 m ρ c,
    W5_arg0 m ρ c, W5_arg1 m ρ c, W5_arg3 m ρ c, W5_arg4 m ρ c, W5_arg5 m ρ c, W5_arg7 m ρ c, W5_arg8 m ρ c, W5_arg9 m ρ c]
  unfold Cert.Spec.out
  exact congrArg₂ (fun x y => Cert.Spec.tail (F := Ideal) x y (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)))
    (Cert.Spec.contrib_flat (m ((c : Thread nD τ).loc main_arg1)) (m ((c : Thread nD τ).loc main_arg2)) (m ((c : Thread nD τ).loc main_arg3)) (m ((c : Thread nD τ).loc main_arg6)) ((dat0 (V0 m ρ) c).arrAt 1 cfg0.N) (rowsums m ρ c)
      shapeCasts_S100000x1_S100000 gather_S100000_S1638400x1_S1638400_n_0_n_n_0_1_1_wf shapeCasts_S1638400_S12800x128 shapeCasts_S12800x128_S1638400)
    (Cert.Spec.cnt_flat (m ((c : Thread nD τ).loc main_arg1)) (m ((c : Thread nD τ).loc main_arg2)) (m ((c : Thread nD τ).loc main_arg3)) shapeCasts_S1638400_S12800x128 shapeCasts_S12800x128_S1638400)

end Cert.KernelIdeal.KerValue

end
-- ==== Proof.RefRun.lean ====
/-
  The reference program's @main as ONE straight line of host operations, each outlined function's
  operations listed where it is called, over that call's own buffers: every weakly fair execution
  terminates, and each buffer ends at the fold of the operations' results over the launch contents.
-/
import proofs.«121189_j57148834841202_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first stretch of @main (up to the column form of the per-sample sum), in order. -/
abbrev ops0 : List (HloOp τ sig (Elt F)) :=
  [ StableHlo.nullary main_c (constantI S_ 32 0#32),
    StableHlo.unary main_c main_v0 (broadcastInDim S1638400 ![] bcast_S_S1638400 : (⟨S_, .i32⟩ : BufTy).Contents (Elt F) → (⟨S1638400, .i32⟩ : BufTy).Contents (Elt F)),
    StableHlo.binary main_arg2 main_v0 main_v1 (cmpi .slt : (⟨S1638400, .i32⟩ : BufTy).Contents (Elt F) → (⟨S1638400, .i32⟩ : BufTy).Contents (Elt F) → (⟨S1638400, .i1⟩ : BufTy).Contents (Elt F)),
    StableHlo.nullary main_c_0 (constantI S_ 32 100000#32),
    StableHlo.unary main_c_0 main_v2 (broadcastInDim S1638400 ![] bcast_S_S1638400 : (⟨S_, .i32⟩ : BufTy).Contents (Elt F) → (⟨S1638400, .i32⟩ : BufTy).Contents (Elt F)),
    StableHlo.binary main_arg2 main_v2 main_v3 (addi : (⟨S1638400, .i32⟩ : BufTy).Contents (Elt F) → (⟨S1638400, .i32⟩ : BufTy).Contents (Elt F) → (⟨S1638400, .i32⟩ : BufTy).Contents (Elt F)),
    StableHlo.ternary main_v1 main_v3 main_arg2 main_v4 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    StableHlo.unary main_v4 main_v5 (broadcastInDim S1638400x1 ![0] bcast_S1638400_S1638400x1_0 : (⟨S1638400, .i32⟩ : BufTy).Contents (Elt F) → (⟨S1638400x1, .i32⟩ : BufTy).Contents (Elt F)),
    StableHlo.binary main_arg6 main_v5 main_v6 ((fun x i => Host.gather gather_S100000x64_S1638400x1_S1638400x64_1_0_n_n_0_1_164 x i) : (⟨S100000x64, .f32⟩ : BufTy).Contents (Elt F) → (⟨S1638400x1, .i32⟩ : BufTy).Contents (Elt F) → (⟨S1638400x64, .f32⟩ : BufTy).Contents (Elt F)),
    StableHlo.nullary main_cst (constant S_ .f32 0x00000000#32),
    StableHlo.binary main_v6 main_cst main_v7 ((fun x v => Host.reduceAdd x v reducesTo_S1638400x64_S1638400_d1 h_S_) : (⟨S1638400x64, .f32⟩ : BufTy).Contents (Elt F) → (⟨S_, .f32⟩ : BufTy).Contents (Elt F) → (⟨S1638400, .f32⟩ : BufTy).Contents (Elt F)),
    StableHlo.nullary main_c_1 (constantI S_ 32 5#32),
    StableHlo.TRef.unary (.of main_c_1 : StableHlo.TRef sig ⟨S_, .i32⟩) main_call0.v0 id,
    StableHlo.TRef.unary main_call0.v0 main_call0.v1 (broadcastInDim S1638400 ![] bcast_S_S1638400),
    StableHlo.TRef.binary (.of main_arg3 : StableHlo.TRef sig ⟨S1638400, .i32⟩) main_call0.v1 main_call0.v2 Host.divsi,
    StableHlo.TRef.unary (.of main_arg3 : StableHlo.TRef sig ⟨S1638400, .i32⟩) main_call0.v3 signi,
    StableHlo.TRef.unary main_call0.v0 main_call0.v4 signi,
    StableHlo.TRef.unary main_call0.v4 main_call0.v5 (broadcastInDim S1638400 ![] bcast_S_S1638400),
    StableHlo.TRef.binary main_call0.v3 main_call0.v5 main_call0.v6 (cmpi .ne),
    StableHlo.TRef.unary main_call0.v0 main_call0.v7 (broadcastInDim S1638400 ![] bcast_S_S1638400),
    StableHlo.TRef.binary (.of main_arg3 : StableHlo.TRef sig ⟨S1638400, .i32⟩) main_call0.v7 main_call0.v8 Host.remsi,
    StableHlo.TRef.nullary main_call0.c (constantI S_ 32 0#32),
    StableHlo.TRef.unary main_call0.c main_call0.v9 (broadcastInDim S1638400 ![] bcast_S_S1638400),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S1638400 ![] bcast_S_S1638400),
    StableHlo.TRef.binary main_call0.v2 main_call0.v12 main_call0.v13 subi,
    StableHlo.TRef.ternary main_call0.v11 main_call0.v13 main_call0.v2 main_call0.call0.v0 select,
    StableHlo.nullary main_c_2 (constantI S_ 32 0#32),
    StableHlo.unary main_c_2 main_v9 (broadcastInDim S1638400 ![] bcast_S_S1638400 : (⟨S_, .i32⟩ : BufTy).Contents (Elt F) → (⟨S1638400, .i32⟩ : BufTy).Contents (Elt F)),
    StableHlo.binary main_v8 main_v9 main_v10 (cmpi .slt : (⟨S1638400, .i32⟩ : BufTy).Contents (Elt F) → (⟨S1638400, .i32⟩ : BufTy).Contents (Elt F) → (⟨S1638400, .i1⟩ : BufTy).Contents (Elt F)),
    StableHlo.nullary main_c_3 (constantI S_ 32 16384#32),
    StableHlo.unary main_c_3 main_v11 (broadcastInDim S1638400 ![] bcast_S_S1638400 : (⟨S_, .i32⟩ : BufTy).Contents (Elt F) → (⟨S1638400, .i32⟩ : BufTy).Contents (Elt F)),
    StableHlo.binary main_v8 main_v11 main_v12 (addi : (⟨S1638400, .i32⟩ : BufTy).Contents (Elt F) → (⟨S1638400, .i32⟩ : BufTy).Contents (Elt F) → (⟨S1638400, .i32⟩ : BufTy).Contents (Elt F)),
    StableHlo.ternary main_v10 main_v12 main_v8 main_v13 (select : (⟨S1638400, .i1⟩ : BufTy).Contents (Elt F) → (⟨S1638400, .i32⟩ : BufTy).Contents (Elt F) → (⟨S1638400, .i32⟩ : BufTy).Contents (Elt F) → (⟨S1638400, .i32⟩ : BufTy).Contents (Elt F)),
    StableHlo.unary main_v13 main_v14 (broadcastInDim S1638400x1 ![0] bcast_S1638400_S1638400x1_0 : (⟨S1638400, .i32⟩ : BufTy).Contents (Elt F) → (⟨S1638400x1, .i32⟩ : BufTy).Contents (Elt F)),
    StableHlo.binary main_arg1 main_v14 main_v15 ((fun x i => Host.gather gather_S16384_S1638400x1_S1638400_n_0_n_n_0_1_1 x i) : (⟨S16384, .i32⟩ : BufTy).Contents (Elt F) → (⟨S1638400x1, .i32⟩ : BufTy).Contents (Elt F) → (⟨S1638400, .i32⟩ : BufTy).Contents (Elt F)),
    StableHlo.binary main_arg2 main_v15 main_v16 (cmpi .eq : (⟨S1638400, .i32⟩ : BufTy).Contents (Elt F) → (⟨S1638400, .i32⟩ : BufTy).Contents (Elt F) → (⟨S1638400, .i1⟩ : BufTy).Contents (Elt F)),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S1638400 ![] bcast_S_S1638400),
    StableHlo.TRef.ternary (.of main_v16 : StableHlo.TRef sig ⟨S1638400, .i1⟩) main_call1.v1 (.of main_v7 : StableHlo.TRef sig ⟨S1638400, .f32⟩) main_call1.v2 select,
    StableHlo.nullary main_cst_5 (constant S_ .f32 0x00000000#32),
    StableHlo.unary main_cst_5 main_v18 (broadcastInDim S81920 ![] bcast_S_S81920 : (⟨S_, .f32⟩ : BufTy).Contents (Elt F) → (⟨S81920, .f32⟩ : BufTy).Contents (Elt F)),
    StableHlo.unary main_arg3 main_v19 (broadcastInDim S1638400x1 ![0] bcast_S1638400_S1638400x1_0 : (⟨S1638400, .i32⟩ : BufTy).Contents (Elt F) → (⟨S1638400x1, .i32⟩ : BufTy).Contents (Elt F)),
    StableHlo.ternary main_v18 main_v19 main_v17 main_v20 ((fun x i u => Host.scatterAdd scatter_S81920_S1638400x1_S1638400_n_0_0_1 x i u) : (⟨S81920, .f32⟩ : BufTy).Contents (Elt F) → (⟨S1638400x1, .i32⟩ : BufTy).Contents (Elt F) → (⟨S1638400, .f32⟩ : BufTy).Contents (Elt F) → (⟨S81920, .f32⟩ : BufTy).Contents (Elt F)),
    StableHlo.nullary main_cst_6 (constant S_ .f32 0x00000000#32),
    StableHlo.nullary main_cst_7 (constant S_ .f32 0x3F800000#32),
    StableHlo.TRef.unary (.of main_cst_6 : StableHlo.TRef sig ⟨S_, .f32⟩) main_call2.v0 (broadcastInDim S1638400 ![] bcast_S_S1638400),
    StableHlo.TRef.unary (.of main_cst_7 : StableHlo.TRef sig ⟨S_, .f32⟩) main_call2.v1 (broadcastInDim S1638400 ![] bcast_S_S1638400),
    StableHlo.TRef.ternary (.of main_v16 : StableHlo.TRef sig ⟨S1638400, .i1⟩) main_call2.v0 main_call2.v1 main_call2.v2 select,
    StableHlo.nullary main_cst_8 (constant S_ .f32 0x00000000#32),
    StableHlo.unary main_cst_8 main_v22 (broadcastInDim S81920 ![] bcast_S_S81920 : (⟨S_, .f32⟩ : BufTy).Contents (Elt F) → (⟨S81920, .f32⟩ : BufTy).Contents (Elt F)),
    StableHlo.unary main_arg3 main_v23 (broadcastInDim S1638400x1 ![0] bcast_S1638400_S1638400x1_0 : (⟨S1638400, .i32⟩ : BufTy).Contents (Elt F) → (⟨S1638400x1, .i32⟩ : BufTy).Contents (Elt F)),
    StableHlo.unary main_v21 main_v24 (id : (⟨S1638400, .f32⟩ : BufTy).Contents (Elt F) → (⟨S1638400, .f32⟩ : BufTy).Contents (Elt F)),
    StableHlo.ternary main_v22 main_v23 main_v24 main_v25 ((fun x i u => Host.scatterAdd scatter_S81920_S1638400x1_S1638400_n_0_0_1 x i u) : (⟨S81920, .f32⟩ : BufTy).Contents (Elt F) → (⟨S1638400x1, .i32⟩ : BufTy).Contents (Elt F) → (⟨S1638400, .f32⟩ : BufTy).Contents (Elt F) → (⟨S81920, .f32⟩ : BufTy).Contents (Elt F)),
    StableHlo.nullary main_cst_9 (constant S_ .f32 0x00000000#32),
    StableHlo.unary main_cst_9 main_v26 (broadcastInDim S81920 ![] bcast_S_S81920 : (⟨S_, .f32⟩ : BufTy).Contents (Elt F) → (⟨S81920, .f32⟩ : BufTy).Contents (Elt F)),
    StableHlo.binary main_v25 main_v26 main_v27 (cmpf .ogt : (⟨S81920, .f32⟩ : BufTy).Contents (Elt F) → (⟨S81920, .f32⟩ : BufTy).Contents (Elt F) → (⟨S81920, .i1⟩ : BufTy).Contents (Elt F)),
    StableHlo.nullary main_cst_10 (constant S_ .f32 0x3F800000#32),
    StableHlo.unary main_cst_10 main_v28 (broadcastInDim S81920 ![] bcast_S_S81920 : (⟨S_, .f32⟩ : BufTy).Contents (Elt F) → (⟨S81920, .f32⟩ : BufTy).Contents (Elt F)),
    StableHlo.binary main_v25 main_v28 main_v29 (maximumf : (⟨S81920, .f32⟩ : BufTy).Contents (Elt F) → (⟨S81920, .f32⟩ : BufTy).Contents (Elt F) → (⟨S81920, .f32⟩ : BufTy).Contents (Elt F)),
    StableHlo.unary main_v29 main_v30 (Host.sqrt : (⟨S81920, .f32⟩ : BufTy).Contents (Elt F) → (⟨S81920, .f32⟩ : BufTy).Contents (Elt F)),
    StableHlo.binary main_v20 main_v30 main_v31 (Host.divf : (⟨S81920, .f32⟩ : BufTy).Contents (Elt F) → (⟨S81920, .f32⟩ : BufTy).Contents (Elt F) → (⟨S81920, .f32⟩ : BufTy).Contents (Elt F)),
    StableHlo.nullary main_cst_11 (constant S_ .f32 0x00000000#32),
    StableHlo.TRef.unary (.of main_cst_11 : StableHlo.TRef sig ⟨S_, .f32⟩) main_call3.v0 id,
    StableHlo.TRef.unary main_call3.v0 main_call3.v1 (broadcastInDim S81920 ![] bcast_S_S81920),
    StableHlo.TRef.ternary (.of main_v27 : StableHlo.TRef sig ⟨S81920, .i1⟩) (.of main_v31 : StableHlo.TRef sig ⟨S81920, .f32⟩) main_call3.v1 main_call3.v2 select,
    StableHlo.reshape main_v32 main_v33 rfl shapeCasts_S81920_S16384x5,
    StableHlo.nullary main_cst_12 (constant S_ .f32 0x00000000#32),
    StableHlo.binary main_v33 main_cst_12 main_v34 ((fun x v => Host.reduceAdd x v reducesTo_S16384x5_S16384_d1 h_S_) : (⟨S16384x5, .f32⟩ : BufTy).Contents (Elt F) → (⟨S_, .f32⟩ : BufTy).Contents (Elt F) → (⟨S16384, .f32⟩ : BufTy).Contents (Elt F)),
    StableHlo.nullary main_c_13 (constantI S_ 32 0#32),
    StableHlo.unary main_c_13 main_v35 (broadcastInDim S16384 ![] bcast_S_S16384 : (⟨S_, .i32⟩ : BufTy).Contents (Elt F) → (⟨S16384, .i32⟩ : BufTy).Contents (Elt F)),
    StableHlo.binary main_arg0 main_v35 main_v36 (cmpi .slt : (⟨S16384, .i32⟩ : BufTy).Contents (Elt F) → (⟨S16384, .i32⟩ : BufTy).Contents (Elt F) → (⟨S16384, .i1⟩ : BufTy).Contents (Elt F)),
    StableHlo.nullary main_c_14 (constantI S_ 32 100000#32),
    StableHlo.unary main_c_14 main_v37 (broadcastInDim S16384 ![] bcast_S_S16384 : (⟨S_, .i32⟩ : BufTy).Contents (Elt F) → (⟨S16384, .i32⟩ : BufTy).Contents (Elt F)),
    StableHlo.binary main_arg0 main_v37 main_v38 (addi : (⟨S16384, .i32⟩ : BufTy).Contents (Elt F) → (⟨S16384, .i32⟩ : BufTy).Contents (Elt F) → (⟨S16384, .i32⟩ : BufTy).Contents (Elt F)),
    StableHlo.ternary main_v36 main_v38 main_arg0 main_v39 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v39 main_v40 (broadcastInDim S16384x1 ![0] bcast_S16384_S16384x1_0 : (⟨S16384, .i32⟩ : BufTy).Contents (Elt F) → (⟨S16384x1, .i32⟩ : BufTy).Contents (Elt F)),
    StableHlo.binary main_arg4 main_v40 main_v41 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    StableHlo.unary main_v34 main_v42 (broadcastInDim S16384x1 ![0] bcast_S16384_S16384x1_0 : (⟨S16384, .f32⟩ : BufTy).Contents (Elt F) → (⟨S16384x1, .f32⟩ : BufTy).Contents (Elt F)) ]

/-- The second stretch of @main (the dot product with the item row, the biases, the clip), in order. -/
abbrev ops1 : List (HloOp τ sig (Elt F)) :=
  [ StableHlo.unary main_v42 main_v43 (broadcastInDim S16384x64 ![0, 1] bcast_S16384x1_S16384x64_0_1 : (⟨S16384x1, .f32⟩ : BufTy).Contents (Elt F) → (⟨S16384x64, .f32⟩ : BufTy).Contents (Elt F)),
    StableHlo.binary main_v41 main_v43 main_v44 (addf : (⟨S16384x64, .f32⟩ : BufTy).Contents (Elt F) → (⟨S16384x64, .f32⟩ : BufTy).Contents (Elt F) → (⟨S16384x64, .f32⟩ : BufTy).Contents (Elt F)),
    StableHlo.nullary main_c_15 (constantI S_ 32 0#32),
    StableHlo.unary main_c_15 main_v45 (broadcastInDim S16384 ![] bcast_S_S16384 : (⟨S_, .i32⟩ : BufTy).Contents (Elt F) → (⟨S16384, .i32⟩ : BufTy).Contents (Elt F)),
    StableHlo.binary main_arg1 main_v45 main_v46 (cmpi .slt : (⟨S16384, .i32⟩ : BufTy).Contents (Elt F) → (⟨S16384, .i32⟩ : BufTy).Contents (Elt F) → (⟨S16384, .i1⟩ : BufTy).Contents (Elt F)),
    StableHlo.nullary main_c_16 (constantI S_ 32 100000#32),
    StableHlo.unary main_c_16 main_v47 (broadcastInDim S16384 ![] bcast_S_S16384 : (⟨S_, .i32⟩ : BufTy).Contents (Elt F) → (⟨S16384, .i32⟩ : BufTy).Contents (Elt F)),
    StableHlo.binary main_arg1 main_v47 main_v48 (addi : (⟨S16384, .i32⟩ : BufTy).Contents (Elt F) → (⟨S16384, .i32⟩ : BufTy).Contents (Elt F) → (⟨S16384, .i32⟩ : BufTy).Contents (Elt F)),
    StableHlo.ternary main_v46 main_v48 main_arg1 main_v49 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v49 main_v50 (broadcastInDim S16384x1 ![0] bcast_S16384_S16384x1_0 : (⟨S16384, .i32⟩ : BufTy).Contents (Elt F) → (⟨S16384x1, .i32⟩ : BufTy).Contents (Elt F)),
    StableHlo.binary main_arg5 main_v50 main_v51 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    StableHlo.binary main_v44 main_v51 main_v52 (mulf : (⟨S16384x64, .f32⟩ : BufTy).Contents (Elt F) → (⟨S16384x64, .f32⟩ : BufTy).Contents (Elt F) → (⟨S16384x64, .f32⟩ : BufTy).Contents (Elt F)),
    StableHlo.nullary main_cst_17 (constant S_ .f32 0x00000000#32),
    StableHlo.binary main_v52 main_cst_17 main_v53 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    StableHlo.nullary main_c_18 (constantI S_ 32 0#32),
    StableHlo.unary main_c_18 main_v54 (broadcastInDim S16384 ![] bcast_S_S16384 : (⟨S_, .i32⟩ : BufTy).Contents (Elt F) → (⟨S16384, .i32⟩ : BufTy).Contents (Elt F)),
    StableHlo.binary main_arg0 main_v54 main_v55 (cmpi .slt : (⟨S16384, .i32⟩ : BufTy).Contents (Elt F) → (⟨S16384, .i32⟩ : BufTy).Contents (Elt F) → (⟨S16384, .i1⟩ : BufTy).Contents (Elt F)),
    StableHlo.nullary main_c_19 (constantI S_ 32 100000#32),
    StableHlo.unary main_c_19 main_v56 (broadcastInDim S16384 ![] bcast_S_S16384 : (⟨S_, .i32⟩ : BufTy).Contents (Elt F) → (⟨S16384, .i32⟩ : BufTy).Contents (Elt F)),
    StableHlo.binary main_arg0 main_v56 main_v57 (addi : (⟨S16384, .i32⟩ : BufTy).Contents (Elt F) → (⟨S16384, .i32⟩ : BufTy).Contents (Elt F) → (⟨S16384, .i32⟩ : BufTy).Contents (Elt F)),
    StableHlo.ternary main_v55 main_v57 main_arg0 main_v58 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v58 main_v59 (broadcastInDim S16384x1 ![0] bcast_S16384_S16384x1_0 : (⟨S16384, .i32⟩ : BufTy).Contents (Elt F) → (⟨S16384x1, .i32⟩ : BufTy).Contents (Elt F)),
    StableHlo.binary main_arg7 main_v59 main_v60 ((fun x i => Host.gather gather_S100000_S16384x1_S16384_n_0_n_n_0_1_1 x i) : (⟨S100000, .f32⟩ : BufTy).Contents (Elt F) → (⟨S16384x1, .i32⟩ : BufTy).Contents (Elt F) → (⟨S16384, .f32⟩ : BufTy).Contents (Elt F)),
    StableHlo.binary main_v53 main_v60 main_v61 (addf : (⟨S16384, .f32⟩ : BufTy).Contents (Elt F) → (⟨S16384, .f32⟩ : BufTy).Contents (Elt F) → (⟨S16384, .f32⟩ : BufTy).Contents (Elt F)),
    StableHlo.nullary main_c_20 (constantI S_ 32 0#32),
    StableHlo.unary main_c_20 main_v62 (broadcastInDim S16384 ![] bcast_S_S16384 : (⟨S_, .i32⟩ : BufTy).Contents (Elt F) → (⟨S16384, .i32⟩ : BufTy).Contents (Elt F)),
    StableHlo.binary main_arg1 main_v62 main_v63 (cmpi .slt : (⟨S16384, .i32⟩ : BufTy).Contents (Elt F) → (⟨S16384, .i32⟩ : BufTy).Contents (Elt F) → (⟨S16384, .i1⟩ : BufTy).Contents (Elt F)),
    StableHlo.nullary main_c_21 (constantI S_ 32 100000#32),
    StableHlo.unary main_c_21 main_v64 (broadcastInDim S16384 ![] bcast_S_S16384 : (⟨S_, .i32⟩ : BufTy).Contents (Elt F) → (⟨S16384, .i32⟩ : BufTy).Contents (Elt F)),
    StableHlo.binary main_arg1 main_v64 main_v65 (addi : (⟨S16384, .i32⟩ : BufTy).Contents (Elt F) → (⟨S16384, .i32⟩ : BufTy).Contents (Elt F) → (⟨S16384, .i32⟩ : BufTy).Contents (Elt F)),
    StableHlo.ternary main_v63 main_v65 main_arg1 main_v66 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v66 main_v67 (broadcastInDim S16384x1 ![0] bcast_S16384_S16384x1_0 : (⟨S16384, .i32⟩ : BufTy).Contents (Elt F) → (⟨S16384x1, .i32⟩ : BufTy).Contents (Elt F)),
    StableHlo.binary main_arg8 main_v67 main_v68 ((fun x i => Host.gather gather_S100000_S16384x1_S16384_n_0_n_n_0_1_1 x i) : (⟨S100000, .f32⟩ : BufTy).Contents (Elt F) → (⟨S16384x1, .i32⟩ : BufTy).Contents (Elt F) → (⟨S16384, .f32⟩ : BufTy).Contents (Elt F)),
    StableHlo.binary main_v61 main_v68 main_v69 (addf : (⟨S16384, .f32⟩ : BufTy).Contents (Elt F) → (⟨S16384, .f32⟩ : BufTy).Contents (Elt F) → (⟨S16384, .f32⟩ : BufTy).Contents (Elt F)),
    StableHlo.unary main_arg9 main_v70 (broadcastInDim S16384 ![] bcast_S_S16384 : (⟨S_, .f32⟩ : BufTy).Contents (Elt F) → (⟨S16384, .f32⟩ : BufTy).Contents (Elt F)),
    StableHlo.binary main_v69 main_v70 main_v71 (addf : (⟨S16384, .f32⟩ : BufTy).Contents (Elt F) → (⟨S16384, .f32⟩ : BufTy).Contents (Elt F) → (⟨S16384, .f32⟩ : BufTy).Contents (Elt F)),
    StableHlo.nullary main_cst_22 (constant S_ .f32 0x3F800000#32),
    StableHlo.nullary main_cst_23 (constant S_ .f32 0x40A00000#32),
    StableHlo.TRef.unary (.of main_cst_22 : StableHlo.TRef sig ⟨S_, .f32⟩) main_call4.v0 id,
    StableHlo.TRef.unary main_call4.v0 main_call4.v1 (broadcastInDim S16384 ![] bcast_S_S16384),
    StableHlo.TRef.binary main_call4.v1 (.of main_v71 : StableHlo.TRef sig ⟨S16384, .f32⟩) main_call4.v2 maximumf,
    StableHlo.TRef.unary (.of main_cst_23 : StableHlo.TRef sig ⟨S_, .f32⟩) main_call4.v3 id,
    StableHlo.TRef.unary main_call4.v3 main_call4.v4 (broadcastInDim S16384 ![] bcast_S_S16384),
    StableHlo.TRef.binary main_call4.v4 main_call4.v2 main_call4.v5 minimumf ]

/-- @main's operations, in order. -/
abbrev ops : List (HloOp τ sig (Elt F)) := ops0 ++ ops1

set_option maxRecDepth 4096 in
theorem part0_eq (c : Dev nD) : main_part0 (F := F) c = seq ops0 := by
  simp only [main_part0, fn_floor_divide.body, fn_where.body, fn_where_0.body, fn_where_1.body, fn_where_2.body, seq, bind_assoc, pure_bind]
  rfl

set_option maxRecDepth 4096 in
theorem part1_eq (c : Dev nD) : main_part1 (F := F) c = seq ops1 := by
  simp only [main_part1, fn_clip.body, seq, bind_assoc, pure_bind]

/-- @main is that straight line: its two stretches one after the other are their concatenation. -/
theorem main_eq (c : Dev nD) : main (F := F) c = seq ops := by
  rw [show (ops : List (HloOp τ sig (Elt F))) = ops0 ++ ops1 from rfl, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.reshape_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩

theorem ops1_sub : (ops1 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub ..⟩

theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- From any memory with zero counters every weakly fair execution of @main terminates, and every final
    state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => (List.mem_append.mp h).elim (ops0_fresh op) (ops1_fresh op))

end Cert.ReferenceIdeal.RefRun

end
-- ==== Proof.RefArgs.lean ====
/-
  No operation of the reference program writes an argument array: the fold of its operations over any
  contents leaves each of the ten argument buffers as it was.
-/
import proofs.«121189_j57148834841202_1_alg».proof.Proof.RefRun

noncomputable section

namespace Cert.ReferenceIdeal.RefArgs

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

set_option maxRecDepth 16384 in
set_option maxHeartbeats 4000000 in
theorem arg0_eq (V : Valuation τ sig (Elt F)) :
    after ops V (Proc.devRef .tc main_arg0) = V (Proc.devRef .tc main_arg0) := by
  show after (ops0 ++ ops1) V _ = _
  simp only [List.cons_append, List.nil_append]
  after_results_simp

set_option maxRecDepth 16384 in
set_option maxHeartbeats 4000000 in
theorem arg1_eq (V : Valuation τ sig (Elt F)) :
    after ops V (Proc.devRef .tc main_arg1) = V (Proc.devRef .tc main_arg1) := by
  show after (ops0 ++ ops1) V _ = _
  simp only [List.cons_append, List.nil_append]
  after_results_simp

set_option maxRecDepth 16384 in
set_option maxHeartbeats 4000000 in
theorem arg2_eq (V : Valuation τ sig (Elt F)) :
    after ops V (Proc.devRef .tc main_arg2) = V (Proc.devRef .tc main_arg2) := by
  show after (ops0 ++ ops1) V _ = _
  simp only [List.cons_append, List.nil_append]
  after_results_simp

set_option maxRecDepth 16384 in
set_option maxHeartbeats 4000000 in
theorem arg3_eq (V : Valuation τ sig (Elt F)) :
    after ops V (Proc.devRef .tc main_arg3) = V (Proc.devRef .tc main_arg3) := by
  show after (ops0 ++ ops1) V _ = _
  simp only [List.cons_append, List.nil_append]
  after_results_simp

set_option maxRecDepth 16384 in
set_option maxHeartbeats 4000000 in
theorem arg4_eq (V : Valuation τ sig (Elt F)) :
    after ops V (Proc.devRef .tc main_arg4) = V (Proc.devRef .tc main_arg4) := by
  show after (ops0 ++ ops1) V _ = _
  simp only [List.cons_append, List.nil_append]
  after_results_simp

set_option maxRecDepth 16384 in
set_option maxHeartbeats 4000000 in
theorem arg5_eq (V : Valuation τ sig (Elt F)) :
    after ops V (Proc.devRef .tc main_arg5) = V (Proc.devRef .tc main_arg5) := by
  show after (ops0 ++ ops1) V _ = _
  simp only [List.cons_append, List.nil_append]
  after_results_simp

set_option maxRecDepth 16384 in
set_option maxHeartbeats 4000000 in
theorem arg6_eq (V : Valuation τ sig (Elt F)) :
    after ops V (Proc.devRef .tc main_arg6) = V (Proc.devRef .tc main_arg6) := by
  show after (ops0 ++ ops1) V _ = _
  simp only [List.cons_append, List.nil_append]
  after_results_simp

set_option maxRecDepth 16384 in
set_option maxHeartbeats 4000000 in
theorem arg7_eq (V : Valuation τ sig (Elt F)) :
    after ops V (Proc.devRef .tc main_arg7) = V (Proc.devRef .tc main_arg7) := by
  show after (ops0 ++ ops1) V _ = _
  simp only [List.cons_append, List.nil_append]
  after_results_simp

set_option maxRecDepth 16384 in
set_option maxHeartbeats 4000000 in
theorem arg8_eq (V : Valuation τ sig (Elt F)) :
    after ops V (Proc.devRef .tc main_arg8) = V (Proc.devRef .tc main_arg8) := by
  show after (ops0 ++ ops1) V _ = _
  simp only [List.cons_append, List.nil_append]
  after_results_simp

set_option maxRecDepth 16384 in
set_option maxHeartbeats 4000000 in
theorem arg9_eq (V : Valuation τ sig (Elt F)) :
    after ops V (Proc.devRef .tc main_arg9) = V (Proc.devRef .tc main_arg9) := by
  show after (ops0 ++ ops1) V _ = _
  simp only [List.cons_append, List.nil_append]
  after_results_simp

end Cert.ReferenceIdeal.RefArgs

end
-- ==== Proof.RefValue.lean ====
/-
  The reference's result buffer, read off the fold of its operations, is the specification's function of the
  contents of the argument buffers; and no operation writes an argument.
-/
import proofs.«121189_j57148834841202_1_alg».proof.Proof.RefRun
import proofs.«121189_j57148834841202_1_alg».proof.Proof.Spec

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

variable {F : FTy → Type} [FloatOps F]

set_option maxRecDepth 16384 in
set_option maxHeartbeats 4000000 in
/-- The fold at the result buffer is the specification of the fold's start at the ten argument buffers. -/
theorem out_eq (V : Valuation τ sig (Elt F)) :
    after ops V (Proc.devRef .tc main_v72)
      = Cert.Spec.out (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) := by
  show after (ops0 ++ ops1) V _ = _
  simp only [List.cons_append, List.nil_append]
  after_results_simp
  rfl

end Cert.ReferenceIdeal.RefValue

end
-- ==== Proof.lean ====
/-
  The certificate of the rating-bucket kernel against its jnp reference, at the extended reals.

  Both programs compute, per sample, the clipped score of a user row shifted by a per-sample scalar against an
  item row. The scalar is a sum over the sample's five rating buckets of (sum of contributions) / sqrt(count),
  where a rating contributes the sum of its item's row of a 100000 x 64 table unless the item is the sample's
  target. The reference gathers that row for each of the 1638400 ratings and sums its 64 entries; the kernel
  first sums every row of the table once (a 10-point grid over blocks of 10000 rows) and then gathers ONE entry
  per rating, and masks contributions and counts in a second kernel over the ratings laid out as [12800,128]
  (an 8-point grid over blocks of 1600 rows). The two agree because summing a gathered row IS gathering from the
  row sums — a re-indexing, valid on the extended reals with no finiteness needed — and everything after the
  contributions and counts is the same host computation on both sides.

  Frames: the two kernel programs by their launch over two regions among host stretches; the reference, a
  straight line of host operations (its outlined functions listed at their calls), by its run with the results
  dropped. The idealization rewrote nothing, so nothing is owed for it. The value claim: the kernel program's
  run with every buffer named at the last boundary's contents, the result buffer read back through the stretches
  and the two regions' output arrays to the specification of the launch contents; the reference's run read at
  its result buffer to the same specification; the arguments agree by hypothesis.
-/
import proofs.«121189_j57148834841202_1_alg».proof.Defs
import proofs.«121189_j57148834841202_1_alg».proof.Proof.Gen.Kernel
import proofs.«121189_j57148834841202_1_alg».proof.Proof.Gen.Kernel.Frame
import proofs.«121189_j57148834841202_1_alg».proof.Proof.Gen.KernelIdeal
import proofs.«121189_j57148834841202_1_alg».proof.Proof.Gen.KernelIdeal.Frame
import proofs.«121189_j57148834841202_1_alg».proof.Proof.Gen.ReferenceIdeal
import proofs.«121189_j57148834841202_1_alg».proof.Proof.Gen.Pre_finite_inputs
import proofs.«121189_j57148834841202_1_alg».proof.Proof.KerRun
import proofs.«121189_j57148834841202_1_alg».proof.Proof.KerValue
import proofs.«121189_j57148834841202_1_alg».proof.Proof.RefRun
import proofs.«121189_j57148834841202_1_alg».proof.Proof.RefArgs
import proofs.«121189_j57148834841202_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs, and no operation of it writes an argument. -/
theorem frame_referenceIdeal : Cert.frame_ReferenceIdeal := fun m ρ _ =>
  (θ_run Cert.ReferenceIdeal.defs _ _).mono (fun r h c =>
    ⟨(h c Cert.ReferenceIdeal.main_arg0).trans (Cert.ReferenceIdeal.RefArgs.arg0_eq _),
     (h c Cert.ReferenceIdeal.main_arg1).trans (Cert.ReferenceIdeal.RefArgs.arg1_eq _),
     (h c Cert.ReferenceIdeal.main_arg2).trans (Cert.ReferenceIdeal.RefArgs.arg2_eq _),
     (h c Cert.ReferenceIdeal.main_arg3).trans (Cert.ReferenceIdeal.RefArgs.arg3_eq _),
     (h c Cert.ReferenceIdeal.main_arg4).trans (Cert.ReferenceIdeal.RefArgs.arg4_eq _),
     (h c Cert.ReferenceIdeal.main_arg5).trans (Cert.ReferenceIdeal.RefArgs.arg5_eq _),
     (h c Cert.ReferenceIdeal.main_arg6).trans (Cert.ReferenceIdeal.RefArgs.arg6_eq _),
     (h c Cert.ReferenceIdeal.main_arg7).trans (Cert.ReferenceIdeal.RefArgs.arg7_eq _),
     (h c Cert.ReferenceIdeal.main_arg8).trans (Cert.ReferenceIdeal.RefArgs.arg8_eq _),
     (h c Cert.ReferenceIdeal.main_arg9).trans (Cert.ReferenceIdeal.RefArgs.arg9_eq _)⟩)
    (Cert.ReferenceIdeal.RefRun.run_main (F := Ideal) m ρ)

/-- The idealization rewrote no operation. -/
theorem preserves : Cert.preserves_Kernel_KernelIdeal := trivial

/-- From memories agreeing on the arguments both programs end with the specification's array of the arguments. -/
theorem algebraic : Cert.algebraic_KernelIdeal_ReferenceIdeal := by
  intro m ρ m' ρ' _ hagree
  refine ⟨fun c => Cert.Spec.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.KerRun.run_all (F := Ideal) m ρ)
    exact ⟨(h c _ (Cert.KernelIdeal.KerRun.mem_uc Cert.KernelIdeal.main_v75 (by decide))).trans (Cert.KernelIdeal.KerValue.result_eq m ρ c),
      (h c _ (Cert.KernelIdeal.KerRun.mem_uc Cert.KernelIdeal.main_arg0 (by decide))).trans (Cert.KernelIdeal.Gen.W9_main_arg0 m ρ c),
      (h c _ (Cert.KernelIdeal.KerRun.mem_uc Cert.KernelIdeal.main_arg1 (by decide))).trans (Cert.KernelIdeal.Gen.W9_main_arg1 m ρ c),
      (h c _ (Cert.KernelIdeal.KerRun.mem_uc Cert.KernelIdeal.main_arg2 (by decide))).trans (Cert.KernelIdeal.Gen.W9_main_arg2 m ρ c),
      (h c _ (Cert.KernelIdeal.KerRun.mem_uc Cert.KernelIdeal.main_arg3 (by decide))).trans (Cert.KernelIdeal.Gen.W9_main_arg3 m ρ c),
      (h c _ (Cert.KernelIdeal.KerRun.mem_uc Cert.KernelIdeal.main_arg4 (by decide))).trans (Cert.KernelIdeal.Gen.W9_main_arg4 m ρ c),
      (h c _ (Cert.KernelIdeal.KerRun.mem_uc Cert.KernelIdeal.main_arg5 (by decide))).trans (Cert.KernelIdeal.Gen.W9_main_arg5 m ρ c),
      (h c _ (Cert.KernelIdeal.KerRun.mem_uc Cert.KernelIdeal.main_arg6 (by decide))).trans (Cert.KernelIdeal.Gen.W9_main_arg6 m ρ c),
      (h c _ (Cert.KernelIdeal.KerRun.mem_uc Cert.KernelIdeal.main_arg7 (by decide))).trans (Cert.KernelIdeal.Gen.W9_main_arg7 m ρ c),
      (h c _ (Cert.KernelIdeal.KerRun.mem_uc Cert.KernelIdeal.main_arg8 (by decide))).trans (Cert.KernelIdeal.Gen.W9_main_arg8 m ρ c),
      (h c _ (Cert.KernelIdeal.KerRun.mem_uc Cert.KernelIdeal.main_arg9 (by decide))).trans (Cert.KernelIdeal.Gen.W9_main_arg9 m ρ c)⟩
  · refine (θ_run Cert.ReferenceIdeal.defs _ _).mono (fun r h c => ?_) (Cert.ReferenceIdeal.RefRun.run_main (F := Ideal) m' ρ')
    refine ⟨(h c Cert.ReferenceIdeal.main_v72).trans ((Cert.ReferenceIdeal.RefValue.out_eq _).trans ?_),
      (h c Cert.ReferenceIdeal.main_arg0).trans (Cert.ReferenceIdeal.RefArgs.arg0_eq _),
      (h c Cert.ReferenceIdeal.main_arg1).trans (Cert.ReferenceIdeal.RefArgs.arg1_eq _),
      (h c Cert.ReferenceIdeal.main_arg2).trans (Cert.ReferenceIdeal.RefArgs.arg2_eq _),
      (h c Cert.ReferenceIdeal.main_arg3).trans (Cert.ReferenceIdeal.RefArgs.arg3_eq _),
      (h c Cert.ReferenceIdeal.main_arg4).trans (Cert.ReferenceIdeal.RefArgs.arg4_eq _),
      (h c Cert.ReferenceIdeal.main_arg5).trans (Cert.ReferenceIdeal.RefArgs.arg5_eq _),
      (h c Cert.ReferenceIdeal.main_arg6).trans (Cert.ReferenceIdeal.RefArgs.arg6_eq _),
      (h c Cert.ReferenceIdeal.main_arg7).trans (Cert.ReferenceIdeal.RefArgs.arg7_eq _),
      (h c Cert.ReferenceIdeal.main_arg8).trans (Cert.ReferenceIdeal.RefArgs.arg8_eq _),
      (h c Cert.ReferenceIdeal.main_arg9).trans (Cert.ReferenceIdeal.RefArgs.arg9_eq _)⟩
    obtain ⟨e0, e1, e2, e3, e4, e5, e6, e7, e8, e9⟩ := hagree c
    show Cert.Spec.out (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
    rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
